-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x32 .f32) (main_arg3 : FVec F S32 .f32) (main_arg4 : FVec F S32x32 .f32) (main_arg5 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S8192x32 : Shape := ⟨2, ![8192, 32]⟩
abbrev S256x8192 : Shape := ⟨2, ![256, 8192]⟩
abbrev S512x32 : Shape := ⟨2, ![512, 32]⟩
abbrev S256x32 : Shape := ⟨2, ![256, 32]⟩

abbrev nBuf : Space → Nat
  | .hbm => 9
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S8192x32, .f32⟩
  | .local _ .vmem, ⟨0, _⟩ => ⟨S8192x128, .f32⟩
  | .local _ .vmem, ⟨1, _⟩ => ⟨S128x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S256x8192, .f32⟩
  | .local _ .vmem, ⟨6, _⟩ => ⟨S256x8192, .f32⟩
  | .local _ .vmem, ⟨7, _⟩ => ⟨S256x8192, .f32⟩
  | .local _ .vmem, ⟨8, _⟩ => ⟨S256x8192, .f32⟩
  | .local _ .vmem, ⟨9, _⟩ => ⟨S512x32, .f32⟩
  | .local _ .vmem, ⟨10, _⟩ => ⟨S512x32, .f32⟩
  | .local _ .vmem, ⟨11, _⟩ => ⟨S8192x32, .bf16⟩
  | .local _ .vmem, ⟨12, _⟩ => ⟨S8192x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c0_i32_19 : BitVec 32 := 0#32
  let v37 : BitVec 1 := Scalar.cmpi .eq arg0 c0_i32_19
  let v38 : BitVec 32 := Scalar.extui v37
  let c0_i32_20 : BitVec 32 := 0#32
  let v39 : BitVec 1 := Scalar.cmpi .ne v38 c0_i32_20
  v39

def k0_off1 (i : grid0.Coords) : Fin 2 → Nat :=
  let arg1 : BitVec 32 := BitVec.ofNat 32 (i 1).val
  let c512_i32 : BitVec 32 := 512#32
  let v43 : BitVec 32 := Scalar.muli arg1 c512_i32
  let v44 : Index := Scalar.indexCast v43
  let c0_23 : Index := 0#32
  ![v44.toNat, 0]
def k0_off2 (i : grid0.Coords) : Fin 2 → Nat :=
  let arg1 : BitVec 32 := BitVec.ofNat 32 (i 1).val
  let c512_i32_24 : BitVec 32 := 512#32
  let v48 : BitVec 32 := Scalar.muli arg1 c512_i32_24
  let c256_i32 : BitVec 32 := 256#32
  let v49 : BitVec 32 := Scalar.addi v48 c256_i32
  let v50 : Index := Scalar.indexCast v49
  let c0_25 : Index := 0#32
  ![v50.toNat, 0]
def k0_cond4 (i : grid0.Coords) : BitVec 1 :=
  let arg0 : BitVec 32 := BitVec.ofNat 32 (i 0).val
  let c1_i32_21 : BitVec 32 := 1#32
  let v40 : BitVec 1 := Scalar.cmpi .eq arg0 c1_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S32_S1x32 : S32.ShapeCasts S1x32
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  packedbf16_S8192x32_S8192x32_0_0 : (Rect.unit (s := S8192x32) ![0, 0] S8192x32.size inb_S8192x32_S8192x32_0_0).PackedRows (EltTy.packing .bf16)
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S256x8192_S256x8192_0_0 : ∀ a, (![0, 0] : Fin 2 → Nat) a + S256x8192.size a ≤ S256x8192.size a
  h_S256x8192 : 0 < S256x8192.numel
  broadcasts_S1x32_S256x32 : S1x32.Broadcasts S256x32
  h_S256x32 : 0 < S256x32.numel
  shapeCasts_S256x32_S256x32 : S256x32.ShapeCasts S256x32
  inb_S512x32_S256x32_0_0 : ∀ a, (![0, 0] : Fin 2 → Nat) a + S256x32.size a ≤ S512x32.size a
  inb_S512x32_S256x32_256_0 : ∀ a, (![256, 0] : Fin 2 → Nat) a + S256x32.size a ≤ S512x32.size a
  dot_S8192x128_S128x32_S8192x32_1_0_0_1_n_n_wf : DotDims.WF S8192x128 S128x32 S8192x32 [1] [0] [0] [1] [] []
  dot_S8192x32_S32x32_S8192x32_1_0_0_1_n_n_wf : DotDims.WF S8192x32 S32x32 S8192x32 [1] [0] [0] [1] [] []
  dot_S256x8192_S8192x32_S256x32_1_0_0_1_n_n_wf : DotDims.WF S256x8192 S8192x32 S256x32 [1] [0] [0] [1] [] []
  hrank0 : 0 < grid0.rank
  k0_off1_inb : ∀ i : grid0.Coords, ∀ (k0_h3 : k0_cond3 i = 1#1), ∀ a, (k0_off1 i) a + S256x32.size a ≤ S8192x32.size a
  k0_off2_inb : ∀ i : grid0.Coords, ∀ (k0_h3 : k0_cond3 i = 1#1), ∀ a, (k0_off2 i) a + S256x32.size a ≤ S8192x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8192.size a ≤ S8192x8192.size a
  hwx0_5 : ∀ i : grid0.Coords, EltTy.bits .f32 = 32 ∨ (Rect.block (s := S8192x8192) S256x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8192.size a ≤ S8192x8192.size a
  hwx0_6 : ∀ i : grid0.Coords, EltTy.bits .f32 = 32 ∨ (Rect.block (s := S8192x8192) S256x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S8192x32.size a
  hwx0_7 : ∀ i : grid0.Coords, EltTy.bits .f32 = 32 ∨ (Rect.block (s := S8192x32) S512x32.size (cc0_transform_7 i) (hinb0_7 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S256x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S1x32 : Shape := ⟨2, ![1, 32]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S8192x32, .f32⟩
  | .hbm, ⟨7, _⟩ => ⟨S8192x32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S_, .f32⟩
  | .hbm, ⟨13, _⟩ => ⟨S8192x32, .f32⟩
  | .hbm, ⟨14, _⟩ => ⟨S8192x32, .i1⟩
  | .hbm, ⟨15, _⟩ => ⟨S_, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S_, .f32⟩
  | .hbm, ⟨25, _⟩ => ⟨S_, .f32⟩
  | .hbm, ⟨26, _⟩ => ⟨S8192x32, .f32⟩
  | .hbm, ⟨27, _⟩ => ⟨S8192x32, .i1⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  dot_S8192x128_S128x32_S8192x32_1_0_0_1_n_n_wf : DotDims.WF S8192x128 S128x32 S8192x32 [1] [0] [0] [1] [] []
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

class Facts : Prop extends Facts₀ where

variable [Facts]
-- ==== Proof.WFrameV.lean ====
/-
  What each TensorCore buffer of core `c` holds when the kernel's region is entered: the launch contents after the
  two host reshapes that precede it (each bias vector regarded as one row).
-/
import proofs.«145686_g28389733826938_cont_9to1_253_7_alg».proof.Proof.Gen.Kernel.Launch

noncomputable section

namespace Cert.Kernel.Frame

open Idealize.ShloMosaic Idealize.ShloMosaic.TcCoe Idealize.SL.Sem
open Idealize.SL Idealize.SL.RA
open Cert.Kernel Cert.Kernel.Gen

variable {F : FTy → Type} [FloatOps F]

/-- Core `c`'s buffers at the region's entry: as launched, then the host operations before the region applied. -/
abbrev V (m : (ℓ : Loc nD τ sig) → Buf (Elt F) ℓ) (c : Dev nD) (b : Ref sig .tc) : Buf (Elt F) ((c : Thread nD τ).loc b) :=
  StableHlo.after hostOps0 (fun b => m (c, b)) b

/-- The share each window holds its array at: the adjacency matrix, read through two windows, is held a half by each;
    every other array whole. -/
def shareOf : Fin 8 → PosShare TreeShare := fun
  | 0 => fullShare | 1 => fullShare | 2 => fullShare | 3 => fullShare | 4 => fullShare
  | 5 => fullShare.left | 6 => fullShare.right | 7 => fullShare
  | ⟨_ + 8, h⟩ => absurd h (Nat.not_lt.2 (Nat.le_add_left _ _))

end Cert.Kernel.Frame

end
-- ==== Proof.WFrameDefs.lean ====
/-
  What the kernel's frame is stated over, for any float instance.

  The kernel walks a grid of 2 × 16 points: the first coordinate is the layer, the second a block of 512 rows of the
  adjacency matrix, read as two windows of 256 rows each. It keeps two scratch buffers between points: the support
  matrix `s` (features times weights: stored whole at the first point of each layer) and the hidden layer `h`
  (rows 512·i … 512·i + 511 stored at point i of the first layer, nothing else of it touched). On the second layer it
  stores the two half blocks into its output window instead. This module names the branch conditions and decides
  them over the grid, names the staging buffers the body is called with, and states — through the body's own
  payload terms, so for any instance — the support matrix of each layer, the hidden layer row by row, the output
  block of each point, and the invariant the scratch buffers satisfy before each point.
-/
import proofs.«145686_g28389733826938_cont_9to1_253_7_alg».proof.Proof.WFrameV
import proofs.«145686_g28389733826938_cont_9to1_253_7_alg».proof.Proof.Gen.Kernel.Skeleton
import proofs.«145686_g28389733826938_cont_9to1_253_7_alg».proof.Proof.Gen.Kernel.Points
import Idealize.ShloMosaic.Lib.Pipeline.FrameBody
import Idealize.ShloMosaic.Lib.ValueIdx

set_option maxRecDepth 16384

noncomputable section

namespace Cert.Kernel.Frame

open Idealize.ShloMosaic Idealize.ShloMosaic.TcCoe Idealize.ShloMosaic.ValueIdx
open Idealize.SL Idealize.SL.Sem
open Cert.Kernel Cert.Kernel.Gen

variable {F : FTy → Type} [FloatOps F]

/-! ## The body's four branches, decided over the grid -/

/-- The first branch (store the first layer's support matrix) is taken at the point (0, 0) only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (store the second layer's support matrix) is taken at the point (1, 0) only. -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The third branch (store rows of the hidden layer) is taken on the first layer. -/
abbrev cond0_2 (i : grid0.Coords) : Prop := k0_cond3 i = 1#1
/-- The fourth branch (store the output block) is taken on the second layer. -/
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 16 :=
  (by decide +kernel : ∀ t : Fin grid0.N, cond0_1 (grid0.coords t) ↔ t.val = 16)
theorem hcond0_2 : ∀ t : Fin cfg0.N, cond0_2 (grid0.coords t) ↔ t.val < 16 :=
  (by decide +kernel : ∀ t : Fin grid0.N, cond0_2 (grid0.coords t) ↔ t.val < 16)
theorem hcond0_3 : ∀ t : Fin cfg0.N, cond0_3 (grid0.coords t) ↔ 16 ≤ t.val :=
  (by decide +kernel : ∀ t : Fin grid0.N, cond0_3 (grid0.coords t) ↔ 16 ≤ t.val)

/-- The rows of the hidden layer stored at point `t` start at row 512 · (t mod 16): the first half block there, -/
theorem off1_eq : ∀ t : Fin cfg0.N, k0_off1 (grid0.coords t) = ![512 * (t.val % 16), 0] :=
  (by decide +kernel : ∀ t : Fin grid0.N, k0_off1 (grid0.coords t) = ![512 * (t.val % 16), 0])
/-- the second 256 rows further. -/
theorem off2_eq : ∀ t : Fin cfg0.N, k0_off2 (grid0.coords t) = ![512 * (t.val % 16) + 256, 0] :=
  (by decide +kernel : ∀ t : Fin grid0.N, k0_off2 (grid0.coords t) = ![512 * (t.val % 16) + 256, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- On the first layer the output window is idle: the body stores nothing into it, -/
theorem idleAt0_7 : ∀ t : Fin cfg0.N, t.val < 16 → cfg0.idle 7 (grid0.coords t) = true := by decide +kernel
/-- and the pipeline does not write its block back there. -/
theorem noFlush0_7 : ∀ t : Fin cfg0.N, t.val < 16 → (cfg0.win 7).flush t = false := by decide +kernel
/-- On the second layer it is live. -/
theorem liveAt0_7 : ∀ t : Fin cfg0.N, 16 ≤ t.val → cfg0.idle 7 (grid0.coords t) = false := by decide +kernel

/-! ## The staging and scratch buffers the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x32 .f32 := win0_7.stage (cfg0.slots t 7)
abbrev hs0_7 (t : Fin cfg0.N) : (ms0_7 t).IsWhole := hstage0_7 ((cfg0.slots t 7).cast nbuf0_7)
/-- The support matrix's scratch buffer, -/
abbrev scM0 : Memref sig .tc .vmem S8192x32 .bf16 := Memref.whole cc0_scratch0
/-- and the hidden layer's. -/
abbrev scM1 : Memref sig .tc .vmem S8192x32 .f32 := Memref.whole cc0_scratch1

/-! ## What the body's stores leave, as pieces (newest first) over the values it loaded -/

/-- The two stores of a first-layer point into the hidden layer: the first half block at the point's row offset,
    then the second 256 rows further. -/
def hPieces (i : grid0.Coords) (hc2 : cond0_2 i) (r1 r2 : Vec F S1x32 .f32) (s : Vec F S8192x32 .bf16)
    (a5 a6 : Vec F S256x8192 .f32) : List (View.Piece (Elt F) S8192x32 .f32) :=
  [⟨Rect.unit (s := S8192x32) (k0_off2 i) S256x32.size (k0_off2_inb i hc2), k0_pay3 (k0_pay8 i r1 r2 s a6) (k0_pay9 i r1 r2 s a6)⟩,
   ⟨Rect.unit (s := S8192x32) (k0_off1 i) S256x32.size (k0_off1_inb i hc2), k0_pay2 (k0_pay7 i r1 r2 s a5)⟩]

/-- The two stores of a second-layer point into its output block: rows 0 … 255, then rows 256 … 511. -/
def oPieces (i : grid0.Coords) (r1 r2 : Vec F S1x32 .f32) (s : Vec F S8192x32 .bf16)
    (a5 a6 : Vec F S256x8192 .f32) : List (View.Piece (Elt F) S512x32 .f32) :=
  [⟨Rect.unit (s := S512x32) ![256, 0] S256x32.size inb_S512x32_S256x32_256_0, k0_pay1 (k0_pay8 i r1 r2 s a6) (k0_pay9 i r1 r2 s a6)⟩,
   ⟨Rect.unit (s := S512x32) ![0, 0] S256x32.size inb_S512x32_S256x32_0_0, k0_pay7 i r1 r2 s a5⟩]

/-! ## The windows' blocks -/

variable (m : (ℓ : Loc nD τ sig) → Buf (Elt F) ℓ)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes, point by point, through its payload terms -/

/-- The first point of the first layer, -/
abbrev t0 : Fin cfg0.N := ⟨0, by decide⟩
/-- and of the second. -/
abbrev t16 : Fin cfg0.N := ⟨16, by decide⟩

/-- The rectified first half block of point `t` over a support matrix `s`. -/
def yA (c : Dev nD) (t : Fin cfg0.N) (s : Vec F S8192x32 .bf16) : FVec F S256x32 .f32 :=
  k0_pay7 (grid0.coords t) (iblk m c 2 t) (iblk m c 4 t) s (iblk m c 5 t)
/-- The second half block before the rectifier, -/
def pB (c : Dev nD) (t : Fin cfg0.N) (s : Vec F S8192x32 .bf16) : FVec F S256x32 .f32 :=
  k0_pay8 (grid0.coords t) (iblk m c 2 t) (iblk m c 4 t) s (iblk m c 6 t)
/-- and where it is at least zero. -/
def qB (c : Dev nD) (t : Fin cfg0.N) (s : Vec F S8192x32 .bf16) : IVec S256x32 1 :=
  k0_pay9 (grid0.coords t) (iblk m c 2 t) (iblk m c 4 t) s (iblk m c 6 t)

/-- The first layer's support matrix: features times first weights. -/
def S0 (c : Dev nD) : FVec F S8192x32 .bf16 := k0_pay4 (iblk m c 0 t0) (iblk m c 1 t0)

/-- The point of the first layer that stores row `r` of the hidden layer. -/
def ptOf (y : S8192x32.Idx) : Fin cfg0.N := ⟨(y 0).val / 512, by
  have h : (y 0).val < 8192 := (y 0).isLt
  have hN : cfg0.N = 32 := N_0
  omega⟩

/-- The hidden layer, row by row: row `r` is row `r mod 512` of the block stored at point `r / 512`, in its first
    half block below 256 and in its second from there. -/
def H (c : Dev nD) : Vec F S8192x32 .f32 := fun y =>
  if h : (y 0).val % 512 < 256 then
    k0_pay2 (yA m c (ptOf y) (S0 m c)) (ix2 (⟨(y 0).val % 512, h⟩ : Fin 256) (⟨(y 1).val, (y 1).isLt⟩ : Fin 32))
  else
    k0_pay3 (pB m c (ptOf y) (S0 m c)) (qB m c (ptOf y) (S0 m c))
      (ix2 (⟨(y 0).val % 512 - 256, by have := Nat.mod_lt (y 0).val (show 0 < 512 by decide); omega⟩ : Fin 256) (⟨(y 1).val, (y 1).isLt⟩ : Fin 32))

/-- The second layer's support matrix: hidden layer times second weights. -/
def S1 (c : Dev nD) : FVec F S8192x32 .bf16 := k0_pay5 (H m c) (iblk m c 3 t16)

/-- The output block of point `t` of the second layer: the two rectified half blocks over the second support matrix. -/
def Out (c : Dev nD) (t : Fin cfg0.N) : Vec F S512x32 .f32 := fun y =>
  if h : (y 0).val < 256 then
    yA m c t (S1 m c) (ix2 (⟨(y 0).val, h⟩ : Fin 256) (⟨(y 1).val, (y 1).isLt⟩ : Fin 32))
  else
    k0_pay1 (pB m c t (S1 m c)) (qB m c t (S1 m c))
      (ix2 (⟨(y 0).val - 256, by have h2 : (y 0).val < 512 := (y 0).isLt; omega⟩ : Fin 256) (⟨(y 1).val, (y 1).isLt⟩ : Fin 32))

/-- What the two scratch buffers hold before point `n` (after `n` points): on the first layer the support matrix is
    the first layer's and the rows of the hidden layer stored so far are its rows; from the second layer's first point
    on the support matrix is the second layer's and the hidden layer is complete. Before the first point: nothing. -/
def Inv (c : Dev nD) (n : ℕ) (s : Vec F S8192x32 .bf16) (h : Vec F S8192x32 .f32) : Prop :=
  (1 ≤ n → n ≤ 16 → s = S0 m c) ∧ (17 ≤ n → s = S1 m c) ∧ ∀ y : S8192x32.Idx, (y 0).val < 512 * min n 16 → h y = H m c y

end Cert.Kernel.Frame

end
-- ==== Proof.WFrameInv.lean ====
/-
  How the scratch buffers' invariant moves from point to point, and what a second-layer point leaves in its output
  block — for any float instance: only where the body's stores land matters here, not what they compute.

  A first-layer point `t` stores rows 512·t … 512·t + 255 and 512·t + 256 … 512·t + 511 of the hidden layer and
  touches no other row, so the rows below 512·t stay what they were and the 512 new rows are, by the definition of
  the hidden layer row by row, its rows. After sixteen such points every row is stored. A second-layer point stores
  the two halves of its output block, which cover it.
-/
import proofs.«145686_g28389733826938_cont_9to1_253_7_alg».proof.Proof.WFrameDefs
import Idealize.ShloMosaic.Lib.WritesUnit

set_option maxRecDepth 16384

noncomputable section

namespace Cert.Kernel.Frame

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-- On the first layer the grid's second coordinate is the point's number. -/
theorem coords1_of_lt : ∀ t : Fin cfg0.N, t.val < 16 → ((grid0.coords t) 1).val = t.val :=
  (by decide +kernel : ∀ t : Fin grid0.N, t.val < 16 → ((grid0.coords t) 1).val = t.val)

/-- The hidden layer's scratch buffer after the two stores of first-layer point `t`, the support matrix being the
    first layer's: a row below 512·(t + 1) is the hidden layer's row if the rows below 512·t were. -/
theorem hstep (c : Dev nD) (t : Fin cfg0.N) (ht : t.val < 16) (hc2 : cond0_2 (grid0.coords t))
    (h : Vec F S8192x32 .f32) (hinv : ∀ y : S8192x32.Idx, (y 0).val < 512 * t.val → h y = H m c y)
    (y : S8192x32.Idx) (hy : (y 0).val < 512 * (t.val + 1)) :
    scM1.view.read (Elt F) (scM1.view.writes (Elt F) ((Memref.isWhole_whole cc0_scratch1).unread h)
        (hPieces (grid0.coords t) hc2 (iblk m c 2 t) (iblk m c 4 t) (S0 m c) (iblk m c 5 t) (iblk m c 6 t))) y
      = H m c y := by
  have hi1 : ((grid0.coords t) 1).val = t.val := coords1_of_lt t ht
  have hoff1 : k0_off1 (grid0.coords t) = ![512 * t.val, 0] := by rw [k0_off1_eq, hi1]
  have hoff2 : k0_off2 (grid0.coords t) = ![512 * t.val + 256, 0] := by rw [k0_off2_eq, hi1]
  have hcol : (y 1).val < 32 := (y 1).isLt
  unfold hPieces
  by_cases h0 : (y 0).val < 512 * t.val
  · rw [View.read_writes_cons_rows_of_not_mem _ _ _ _ _ y hoff2 (W := 256) rfl (Or.inl (by omega)),
      View.read_writes_cons_rows_of_not_mem _ _ _ _ _ y hoff1 (W := 256) rfl (Or.inl h0), View.writes_nil,
      Memref.IsWhole.read_unread]
    exact hinv y h0
  · by_cases h1 : (y 0).val < 512 * t.val + 256
    · have hmod : (y 0).val % 512 < 256 := by omega
      have hpt : ptOf y = t := Fin.ext (by show (y 0).val / 512 = t.val; omega)
      refine (View.read_writes_cons_rows_of_not_mem _ _ _ _ _ y hoff2 (W := 256) rfl (Or.inl h1)).trans ?_
      refine (View.read_writes_cons_rows_of_mem (size := S256x32.size) _ _ _ _ _ y
          (ix2 (⟨(y 0).val % 512, hmod⟩ : Fin 256) (⟨(y 1).val, hcol⟩ : Fin 32)) hoff1
          (by show (y 0).val = 512 * t.val + (y 0).val % 512; omega) rfl).trans ?_
      unfold H
      rw [dif_pos hmod, hpt]
      rfl
    · have hmod : ¬ (y 0).val % 512 < 256 := by omega
      have hpt : ptOf y = t := Fin.ext (by show (y 0).val / 512 = t.val; omega)
      refine (View.read_writes_cons_rows_of_mem (size := S256x32.size) _ _ _ _ _ y
          (ix2 (⟨(y 0).val % 512 - 256, by omega⟩ : Fin 256) (⟨(y 1).val, hcol⟩ : Fin 32)) hoff2
          (by show (y 0).val = 512 * t.val + 256 + ((y 0).val % 512 - 256); omega) rfl).trans ?_
      unfold H
      rw [dif_neg hmod, hpt]
      rfl

/-- After the first point: the support matrix is the first layer's and rows 0 … 511 of the hidden layer are stored. -/
theorem inv_A (c : Dev nD) (hc2 : cond0_2 (grid0.coords t0)) (h : Vec F S8192x32 .f32) :
    Inv m c 1 (k0_pay4 (iblk m c 0 t0) (iblk m c 1 t0))
      (scM1.view.read (Elt F) (scM1.view.writes (Elt F) ((Memref.isWhole_whole cc0_scratch1).unread h)
        (hPieces (grid0.coords t0) hc2 (iblk m c 2 t0) (iblk m c 4 t0) (k0_pay4 (iblk m c 0 t0) (iblk m c 1 t0)) (iblk m c 5 t0) (iblk m c 6 t0)))) :=
  ⟨fun _ _ => rfl, fun h17 => absurd h17 (by decide),
    fun y hy => hstep m c t0 (by decide) hc2 h (fun y h0 => absurd h0 (by show ¬ (y 0).val < 512 * 0; omega)) y
      (by have : min 1 16 = 1 := by decide
          rw [this] at hy; exact hy)⟩

/-- A later first-layer point keeps the support matrix and adds its 512 rows. -/
theorem inv_B (c : Dev nD) (t : Fin cfg0.N) (h1 : 1 ≤ t.val) (ht : t.val < 16) (hc2 : cond0_2 (grid0.coords t))
    (s : Vec F S8192x32 .bf16) (h : Vec F S8192x32 .f32) (hI : Inv m c t.val s h) :
    Inv m c (t.val + 1) s
      (scM1.view.read (Elt F) (scM1.view.writes (Elt F) ((Memref.isWhole_whole cc0_scratch1).unread h)
        (hPieces (grid0.coords t) hc2 (iblk m c 2 t) (iblk m c 4 t) s (iblk m c 5 t) (iblk m c 6 t)))) := by
  obtain ⟨hs, -, hh⟩ := hI
  have hs' : s = S0 m c := hs h1 (by omega)
  subst hs'
  have hmin : min t.val 16 = t.val := by omega
  have hmin' : min (t.val + 1) 16 = t.val + 1 := by omega
  exact ⟨fun _ _ => rfl, fun h17 => absurd h17 (by omega),
    fun y hy => hstep m c t ht hc2 h (fun y h0 => hh y (by rw [hmin]; exact h0)) y (by rw [hmin'] at hy; exact hy)⟩

/-- The second layer's first point stores the second support matrix, computed from the complete hidden layer. -/
theorem inv_C (c : Dev nD) (s : Vec F S8192x32 .bf16) (h : Vec F S8192x32 .f32) (hI : Inv m c 16 s h) :
    Inv m c 17 (k0_pay5 h (iblk m c 3 t16)) h := by
  obtain ⟨-, -, hh⟩ := hI
  have hH : h = H m c := funext fun y => hh y (by
    have hr : (y 0).val < 8192 := (y 0).isLt
    have : min 16 16 = 16 := by decide
    rw [this]; omega)
  subst hH
  exact ⟨fun _ h16 => absurd h16 (by decide), fun _ => rfl, fun y _ => rfl⟩

/-- Later second-layer points touch neither scratch buffer. -/
theorem inv_D (c : Dev nD) (n : ℕ) (hn : 17 ≤ n) (s : Vec F S8192x32 .bf16) (h : Vec F S8192x32 .f32)
    (hI : Inv m c n s h) : Inv m c (n + 1) s h := by
  obtain ⟨-, hs, hh⟩ := hI
  have hmin : min n 16 = 16 := by omega
  have hmin' : min (n + 1) 16 = 16 := by omega
  exact ⟨fun _ h16 => absurd h16 (by omega), fun _ => hs hn, fun y hy => hh y (by rw [hmin]; rw [hmin'] at hy; exact hy)⟩

/-- From the second layer on the support matrix is the second layer's. -/
theorem inv_s1 (c : Dev nD) (n : ℕ) (hn : 17 ≤ n) (s : Vec F S8192x32 .bf16) (h : Vec F S8192x32 .f32)
    (hI : Inv m c n s h) : s = S1 m c := hI.2.1 hn

/-- The output block after a second-layer point's two half stores, over the second support matrix: the block
    `Out`, whatever the buffer held before. -/
theorem out_eq (c : Dev nD) (t : Fin cfg0.N) (M : Memref sig .tc .vmem S512x32 .f32) (hM : M.IsWhole)
    (x7 : Vec F S512x32 .f32) :
    M.view.read (Elt F) (M.view.writes (Elt F) (hM.unread x7)
        (oPieces (grid0.coords t) (iblk m c 2 t) (iblk m c 4 t) (S1 m c) (iblk m c 5 t) (iblk m c 6 t)))
      = Out m c t := by
  funext y
  have hcol : (y 1).val < 32 := (y 1).isLt
  have hrow : (y 0).val < 512 := (y 0).isLt
  unfold oPieces
  by_cases h : (y 0).val < 256
  · refine (View.read_writes_cons_rows_of_not_mem _ _ _ _ _ y (o := 256) rfl (W := 256) rfl (Or.inl h)).trans ?_
    refine (View.read_writes_cons_rows_of_mem (size := S256x32.size) _ _ _ _ _ y
        (ix2 (⟨(y 0).val, h⟩ : Fin 256) (⟨(y 1).val, hcol⟩ : Fin 32)) (o := 0) rfl
        (by show (y 0).val = 0 + (y 0).val; omega) rfl).trans ?_
    unfold Out
    rw [dif_pos h]
    rfl
  · refine (View.read_writes_cons_rows_of_mem (size := S256x32.size) _ _ _ _ _ y
        (ix2 (⟨(y 0).val - 256, by omega⟩ : Fin 256) (⟨(y 1).val, hcol⟩ : Fin 32)) (o := 256) rfl
        (by show (y 0).val = 256 + ((y 0).val - 256); omega) rfl).trans ?_
    unfold Out
    rw [dif_neg h]
    rfl

end Cert.Kernel.Frame

end
-- ==== Proof.WFrameData.lean ====
/-
  The proof data of the kernel's one pipeline, for any float instance: at entry every window's array is what the
  region finds; after the body at a point every input window's buffer still holds its block and, on the second
  layer, the output window's buffer holds the point's output block; between points the two scratch buffers hold
  some contents satisfying the invariant of that point; the adjacency matrix's two windows hold half its share each.
-/
import proofs.«145686_g28389733826938_cont_9to1_253_7_alg».proof.Proof.WFrameInv
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Before any point the invariant asks nothing. -/
theorem inv_zero (c : Dev nD) (s : Vec F S8192x32 .bf16) (h : Vec F S8192x32 .f32) : Inv m c 0 s h :=
  ⟨fun h1 => absurd h1 (by decide), fun h17 => absurd h17 (by decide),
    fun y hy => absurd hy (by have : min 0 16 = 0 := by decide
                              rw [this]; omega)⟩

/-- The two scratch buffers before point `n`: at some contents that satisfy the invariant there. -/
def PhiS (c : Dev nD) (n : ℕ) : sProp 𝕄 :=
  iprop(∃ (s : Vec F S8192x32 .bf16) (h : Vec F S8192x32 .f32),
    owns (c : Thread nD τ) scM0 fullShare s ∗ owns (c : Thread nD τ) scM1 fullShare h ∗ ⌜Inv m c n s h⌝)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Out m c t
  Φ t := PhiS m c t.val
  q := shareOf
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem q_eq (c : Dev nD) : (dats m 0 c).q = shareOf := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = Out m c t := by dsimp only [dats]

/-! Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-- The scoped buffers the pipeline does not stage are the two scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- What the launch hands the region is the invariant before the first point. -/
theorem hin (c : Dev nD) :
    (Pipeline.scopedRest (Ix := Unit) (Name := ℕ) (U := UR sig nD τ) (Lvl := ℕ) (Val := Elt F) spec0 c : sProp 𝕄)
      ⊢ (dats m 0 c).Φ 0 := by
  rw [Phi_eq, scoped_eq]
  unfold PhiS
  iintro ⟨⟨%s, Hs⟩, ⟨%h, Hh⟩⟩
  iexists s; iexists h
  isplitl [Hs]; · iexact Hs
  isplitl [Hh]; · iexact Hh
  ipureintro; exact inv_zero m c s h

/-- After the last point the invariant gives the scratch buffers back. -/
theorem hout (c : Dev nD) :
    (dats m 0 c).Φ (Fin.last cfg0.N)
      ⊢ (Pipeline.scopedRest (Ix := Unit) (Name := ℕ) (U := UR sig nD τ) (Lvl := ℕ) (Val := Elt F) spec0 c : sProp 𝕄) := by
  rw [Phi_eq, scoped_eq]
  unfold PhiS
  iintro ⟨%s, %h, Hs, Hh, -⟩
  isplitl [Hs]
  · iexists _; iexact Hs
  · iexists _; iexact Hh

end Cert.Kernel.Frame

end
-- ==== Proof.WFrameRun0.lean ====
/-
  The body's run at the points of the first layer, for any float instance.

  At a point of the first layer the body loads the two bias rows, the support matrix and the two half blocks of the
  adjacency rows, and stores the two rectified half blocks into the hidden layer's scratch buffer at the point's row
  offset; at the first point of all it first computes the support matrix from the features and the first weights and
  stores it whole, so that what it then loads is what it has just stored. Run from whole buffers held at given contents,
  the body ends with every window's buffer as it was, the support matrix's buffer at the stored matrix (first point) or
  as it was (the other points), and the hidden layer's buffer at its former contents with the point's two pieces
  written — the pieces stated over the given contents themselves: a load of a whole buffer through the rectangle of
  its own sizes at zero offsets reads the contents, and one store through that rectangle leaves its payload.
-/
import proofs.«145686_g28389733826938_cont_9to1_253_7_alg».proof.Proof.WFrameDefs
import proofs.«145686_g28389733826938_cont_9to1_253_7_alg».proof.Proof.Gen.Kernel.Skeleton
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, however they are spelt. -/
private theorem hz : (![0, 0] : Fin 2 → ℕ) = fun _ => 0 := funext fun a => by fin_cases a <;> rfl

/-- A load of a whole buffer through the rectangle of its own sizes at zero offsets, the buffer held at the raw
    contents that read `X`, reads `X`. -/
private theorem readAt_whole {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- One store through the rectangle of a buffer's own sizes at zero offsets leaves its payload, whatever the buffer
    held. -/
private theorem read_write_whole {S : Shape} {e : EltTy} (v : View sig .tc .vmem S e) (f : v.ty.Contents (Elt F))
    {off : Fin S.rank → ℕ} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero ho inb y⟩),
    View.canon_unit_zero ho]

/-- The first point of the first layer: the support matrix is computed and stored whole, then the point's two half
    blocks of the hidden layer are stored over it. -/
theorem runA (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : cond0_0 i) (hc1 : ¬cond0_1 i) (hc2 : cond0_2 i) (hc3 : ¬cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay4 x0 x1) ∗ owns (c : Thread nD τ) arg11 fullShare (arg11.view.read (Elt F) (arg11.view.writes (Elt F) (harg11.unread xh) (hPieces i hc2 x2 x4 (k0_pay4 x0 x1) x5 x6)))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS]
  · iexists _; isplitr; swap
    · iexact HS
    ipureintro
    sl_unfold_run_names
    rw [readAt_whole harg2 x0 hz, readAt_whole harg3 x1 hz, read_write_whole arg10.view _ hz]
  iexists _; isplitr; swap
  · iexact HH
  ipureintro
  unfold hPieces
  dsimp only
  sl_unfold_run_names
  rw [readAt_whole harg4 x2 hz, readAt_whole harg6 x4 hz, readAt_whole harg8 x6 hz, readAt_whole harg7 x5 hz,
    readAt_whole harg2 x0 hz, readAt_whole harg3 x1 hz, View.readCov_unit_zero arg10.view hz]

/-- The other points of the first layer: the support matrix is only read, and the point's two half blocks of the
    hidden layer are stored. -/
theorem runB (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : ¬cond0_1 i) (hc2 : cond0_2 i) (hc3 : ¬cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare (arg11.view.read (Elt F) (arg11.view.writes (Elt F) (harg11.unread xh) (hPieces i hc2 x2 x4 xs x5 x6)))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS]
  · iexists _; isplitr; · ipureintro; exact harg10.read_unread _
    iexact HS
  iexists _; isplitr; swap
  · iexact HH
  ipureintro
  unfold hPieces
  dsimp only
  rw [readAt_whole harg4 x2 hz, readAt_whole harg6 x4 hz, readAt_whole harg10 xs hz, readAt_whole harg8 x6 hz,
    readAt_whole harg7 x5 hz]

end Cert.Kernel.Frame

end
-- ==== Proof.WFrameRun1.lean ====
/-
  The body's runs on the second layer, for any float instance.

  On the second layer the body stores the two rectified half blocks into its output block and leaves every other
  buffer as it found it, except at the layer's first point, where it first stores the second support matrix — the
  hidden layer times the second weights — through the whole of its scratch buffer and then reads it back. Each run
  is stated with the values the body loads as variables: the output block ends as its two stored pieces over what
  it held, and at the first point the support matrix's buffer ends holding the product.
-/
import proofs.«145686_g28389733826938_cont_9to1_253_7_alg».proof.Proof.WFrameDefs
import proofs.«145686_g28389733826938_cont_9to1_253_7_alg».proof.Proof.Gen.Kernel.Skeleton
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, however spelt. -/
private theorem zero_off2 : (![0, 0] : Fin 2 → ℕ) = fun _ => 0 :=
  funext fun a => by match a with | ⟨0, _⟩ => rfl | ⟨1, _⟩ => rfl

/-- One store through the whole support matrix's buffer reads back as its payload, whatever the buffer held. -/
private theorem whole_store_read (m : Memref sig .tc .vmem S8192x32 .bf16) (f : m.view.ty.Contents (Elt F))
    (w : Vec F S8192x32 .bf16) :
    m.view.read (Elt F) (m.view.writes (Elt F) f
      [⟨Rect.unit (s := S8192x32) ![0, 0] S8192x32.size inb_S8192x32_S8192x32_0_0, w⟩]) = w :=
  (View.read_writes_eq_canon m.view f
      [⟨Rect.unit (s := S8192x32) ![0, 0] S8192x32.size inb_S8192x32_S8192x32_0_0, w⟩]
      (fun y => ⟨_, List.mem_singleton_self _,
        View.mem_set_unit_zero (S := S8192x32) zero_off2 inb_S8192x32_S8192x32_0_0 y⟩)).trans
    (View.canon_unit_zero (S := S8192x32) zero_off2 inb_S8192x32_S8192x32_0_0 w)

/-- The first point of the second layer: the support matrix is stored, read back, and the output block written. -/
theorem runC (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : cond0_1 i) (hc2 : ¬cond0_2 i) (hc3 : cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (arg9.view.read (Elt F) (arg9.view.writes (Elt F) (harg9.unread x7) (oPieces i x2 x4 (k0_pay5 xh x3) x5 x6))) ∗ owns (c : Thread nD τ) arg10 fullShare (k0_pay5 xh x3) ∗ owns (c : Thread nD τ) arg11 fullShare xh) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap
    · iexact H7
    · ipureintro
      unfold oPieces
      sl_unfold_run_names
      dsimp only
      simp only [View.readAt_eq_ld, harg4.read_unread, harg5.read_unread, harg6.read_unread, harg7.read_unread, harg8.read_unread, harg11.read_unread,
        View.ld_unit_zero (S := S1x32) zero_off2, View.ld_unit_zero (S := S8192x32) zero_off2, View.ld_unit_zero (S := S256x8192) zero_off2,
        View.ld_unit_zero (S := S32x32) zero_off2, View.readCov_unit_zero (S := S8192x32) _ zero_off2]
  isplitl [HS]
  · iexists _; isplitr
    swap
    · iexact HS
    · ipureintro
      sl_unfold_run_names
      simp only [View.readAt_eq_ld, harg5.read_unread, harg11.read_unread,
        View.ld_unit_zero (S := S8192x32) zero_off2, View.ld_unit_zero (S := S32x32) zero_off2]
      exact whole_store_read arg10 (harg10.unread xs) (k0_pay5 xh x3)
  iexists _; isplitr; · ipureintro; exact harg11.read_unread _
  iexact HH

/-- The other points of the second layer: only the output block is written. -/
theorem runD (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : ¬cond0_1 i) (hc2 : ¬cond0_2 i) (hc3 : cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (arg9.view.read (Elt F) (arg9.view.writes (Elt F) (harg9.unread x7) (oPieces i x2 x4 xs x5 x6))) ∗ owns (c : Thread nD τ) arg10 fullShare xs ∗ owns (c : Thread nD τ) arg11 fullShare xh) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap
    · iexact H7
    · ipureintro
      unfold oPieces
      dsimp only
      simp only [View.readAt_eq_ld, harg4.read_unread, harg6.read_unread, harg7.read_unread, harg8.read_unread, harg10.read_unread,
        View.ld_unit_zero (S := S1x32) zero_off2, View.ld_unit_zero (S := S8192x32) zero_off2, View.ld_unit_zero (S := S256x8192) zero_off2]
  isplitl [HS]
  · iexists _; isplitr; · ipureintro; exact harg10.read_unread _
    iexact HS
  iexists _; isplitr; · ipureintro; exact harg11.read_unread _
  iexact HH

end Cert.Kernel.Frame

end
-- ==== Proof.WFrameBody.lean ====
/-
  The body obligation of the kernel's pipeline, for any float instance. At a point the body is handed every input
  window's buffer at its block, the output window's buffer at whatever it holds, and the two scratch buffers at
  contents satisfying the point's invariant. The point's number decides which of the body's four control cases
  it is in; that case's run applies, and what it leaves satisfies the next point's invariant: on the first layer
  the hidden layer gains the point's 512 rows, on the second the output buffer is left at the point's output block.
-/
import proofs.«145686_g28389733826938_cont_9to1_253_7_alg».proof.Proof.WFrameData
import proofs.«145686_g28389733826938_cont_9to1_253_7_alg».proof.Proof.WFrameRun0
import proofs.«145686_g28389733826938_cont_9to1_253_7_alg».proof.Proof.WFrameRun1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_eq, Phi_eq, Fin.coe_castSucc, Fin.val_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hN : t.val < 32 := lt_of_lt_of_eq t.isLt N_0
  unfold PhiS
  by_cases hl : t.val < 16
  · rw [Dat.leavesExact_idle (dats m 0 c) 7 t (idleAt0_7 t hl) (noFlush0_7 t hl)]
    have hc1 : ¬cond0_1 (grid0.coords t) := fun hh => by have := (hcond0_1 t).mp hh; omega
    have hc2 : cond0_2 (grid0.coords t) := (hcond0_2 t).mpr hl
    have hc3 : ¬cond0_3 (grid0.coords t) := fun hh => by have := (hcond0_3 t).mp hh; omega
    by_cases hz : t.val = 0
    · have hc0 : cond0_0 (grid0.coords t) := (hcond0_0 t).mpr hz
      obtain rfl : t = t0 := Fin.ext hz
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0 (Memref.isWhole_whole _) scM1 (Memref.isWhole_whole _) hc0 hc1 hc2 hc3 (iblk m c 0 t0) (iblk m c 1 t0) (iblk m c 2 t0) (iblk m c 3 t0) (iblk m c 4 t0) (iblk m c 5 t0) (iblk m c 6 t0) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_A m c hc2 h
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hc0 : ¬cond0_0 (grid0.coords t) := fun hh => hz ((hcond0_0 t).mp hh)
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 hc2 hc3 (iblk m c 0 t) (iblk m c 1 t) (iblk m c 2 t) (iblk m c 3 t) (iblk m c 4 t) (iblk m c 5 t) (iblk m c 6 t) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_B m c t (by omega) hl hc2 s h hI
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hl' : 16 ≤ t.val := by omega
    rw [show (dats m 0 c).leavesExact 7 t = owns (c : Thread nD τ) (ms0_7 t) fullShare ((dats m 0 c).after 7 t) from by
      unfold Dat.leavesExact; rw [liveAt0_7 t hl'], after0_7]
    have hc0 : ¬cond0_0 (grid0.coords t) := fun hh => by have := (hcond0_0 t).mp hh; omega
    have hc2 : ¬cond0_2 (grid0.coords t) := fun hh => by have := (hcond0_2 t).mp hh; omega
    have hc3 : cond0_3 (grid0.coords t) := (hcond0_3 t).mpr hl'
    by_cases hz : t.val = 16
    · have hc1 : cond0_1 (grid0.coords t) := (hcond0_1 t).mpr hz
      obtain rfl : t = t16 := Fin.ext hz
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hI' := inv_C m c s h hI
      have hS : k0_pay5 h (iblk m c 3 t16) = S1 m c := hI'.2.1 (le_refl 17)
      iapply (runC c (grid0.coords t16) (ms0_0 t16) (hs0_0 t16) (ms0_1 t16) (hs0_1 t16) (ms0_2 t16) (hs0_2 t16) (ms0_3 t16) (hs0_3 t16) (ms0_4 t16) (hs0_4 t16) (ms0_5 t16) (hs0_5 t16) (ms0_6 t16) (hs0_6 t16) (ms0_7 t16) (hs0_7 t16) scM0 (Memref.isWhole_whole _) scM1 (Memref.isWhole_whole _) hc0 hc1 hc2 hc3 (iblk m c 0 t16) (iblk m c 1 t16) (iblk m c 2 t16) (iblk m c 3 t16) (iblk m c 4 t16) (iblk m c 5 t16) (iblk m c 6 t16) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact hI'
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [← out_eq m c t16 (ms0_7 t16) (hs0_7 t16) ((dats m 0 c).before 7 t16 d7), ← hS]
      iexact H7
    · have hc1 : ¬cond0_1 (grid0.coords t) := fun hh => hz ((hcond0_1 t).mp hh)
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hS : s = S1 m c := inv_s1 m c t.val (by omega) s h hI
      subst hS
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 hc2 hc3 (iblk m c 0 t) (iblk m c 1 t) (iblk m c 2 t) (iblk m c 3 t) (iblk m c 4 t) (iblk m c 5 t) (iblk m c 6 t) _ (S1 m c) h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_D m c t.val (by omega) (S1 m c) h hI
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [← out_eq m c t (ms0_7 t) (hs0_7 t) ((dats m 0 c).before 7 t d7)]
      iexact H7

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.Kernel.Frame

end
-- ==== Proof.WFrameLaunch.lean ====
/-
  The launch side of the kernel's frame, at any float instance: the program up to its one region, what the argument
  arrays hold there, how the buffers behind the windows' arrays are dealt to the windows (the adjacency matrix, read
  through two windows, a half share to each), and the frame claim's post read off the frame run's.
-/
import proofs.«145686_g28389733826938_cont_9to1_253_7_alg».proof.Proof.Gen.Kernel.Launch
import proofs.«145686_g28389733826938_cont_9to1_253_7_alg».proof.Proof.Gen.Kernel.Skeleton
import proofs.«145686_g28389733826938_cont_9to1_253_7_alg».proof.Proof.Gen.Kernel.Points
import proofs.«145686_g28389733826938_cont_9to1_253_7_alg».proof.Proof.WFrameV
import Idealize.ShloMosaic.Lib.Pipeline.FrameBody

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Neither host reshape allocates. -/
theorem hostOps0_fresh : (hostOps0 : List (HloOp τ sig (Elt F))).Forall fun op => op.fresh = ∅ := by
  simp only [List.Forall]; repeat' constructor

/-- The program is the two host reshapes and then the region: holding the unscoped buffers as launched it reaches
    the region holding them at `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The frame claim's post from the frame run's -/

/-- The frame from a frame run: for any proof data whose arrays are the region-entry contents (`hA`), a run to the
    frame run's post read at the argument arrays — a staged input is never written (`Dat.arrAt_in`), an array no
    window stages bypasses the region (the post's second clause), each then as launched (`V_main_argK`). -/
theorem frame_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c)⟩) h

/-- The same run with the output array named: window 7's array ends at what the proof data compute for it after the
    last point, and the argument arrays end as launched. -/
theorem frame_out_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v2) = (dats 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
      ((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c)⟩) h

/-! ## The deal of the arrays' buffers to the windows -/

/-- A window's array is a whole buffer: held at contents `A w` on its index set, it is the buffer behind it held at the
    region-entry contents. -/
theorem whole_at (c : Dev nD) (A : (w : Fin cfg0.W) → Buf (Elt F) ((cfg0.win w).arr.view.loc (c.tc : Thread nD τ)))
    (hA : ∀ w, A w = V m c (Pipeline.arrRef spec0 w)) (w : Fin cfg0.W) (q : PosShare TreeShare) :
    ((cfg0.win w).arr.view.loc (c.tc : Thread nD τ) ↦[(cfg0.win w).arr.view.set]{q} A w : sProp 𝕄)
      = ((c.tc : Thread nD τ).loc (Pipeline.arrRef spec0 w) ↦{q} V m c (Pipeline.arrRef spec0 w)) := by
  rw [hA w, (arr_whole0 w).set_eq_univ]

/-- The distinct buffers behind the windows' arrays, one by one: seven for the eight windows, the adjacency matrix's
    counted once. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_arg0) ↦{fullShare} Vc main_arg0) ∗ (((c.tc : Thread nD τ).loc main_arg2) ↦{fullShare} Vc main_arg2) ∗ (((c.tc : Thread nD τ).loc main_v0) ↦{fullShare} Vc main_v0) ∗ (((c.tc : Thread nD τ).loc main_arg4) ↦{fullShare} Vc main_arg4) ∗ (((c.tc : Thread nD τ).loc main_v1) ↦{fullShare} Vc main_v1) ∗ (((c.tc : Thread nD τ).loc main_arg1) ↦{fullShare} Vc main_arg1) ∗ (((c.tc : Thread nD τ).loc main_v2) ↦{fullShare} Vc main_v2)) := by
  unfold Pipeline.arrBufs
  exact bigSep_eq_bigSepL_of_eq [main_arg0, main_arg2, main_v0, main_arg4, main_v1, main_arg1, main_v2] (by decide) (by decide) _

/-- The two halves of the full share make it. -/
local instance : IsOp fullShare fullShare.left fullShare.right := IsOp.posShare_halves fullShare

/-- The seven distinct buffers behind the eight windows' arrays, each whole at the full share at the region-entry
    contents, dealt to the windows: the adjacency matrix's buffer split into its two half shares, one to each of the two
    windows that read it, every other buffer handed whole to its one window. -/
theorem deal (c : Dev nD) (A : (w : Fin cfg0.W) → Buf (Elt F) ((cfg0.win w).arr.view.loc (c.tc : Thread nD τ)))
    (hA : ∀ w, A w = V m c (Pipeline.arrRef spec0 w)) :
    (Pipeline.arrBufs spec0 c (V m c) : sProp 𝕄) ⊢ bigSep Finset.univ fun w : Fin cfg0.W =>
      (cfg0.win w).arr.view.loc (c.tc : Thread nD τ) ↦[(cfg0.win w).arr.view.set]{shareOf w} A w := by
  have hR : (bigSep Finset.univ fun w : Fin cfg0.W =>
        (cfg0.win w).arr.view.loc (c.tc : Thread nD τ) ↦[(cfg0.win w).arr.view.set]{shareOf w} A w : sProp 𝕄)
      = bigSep Finset.univ fun w : Fin cfg0.W =>
        ((c.tc : Thread nD τ).loc (Pipeline.arrRef spec0 w) ↦{shareOf w} V m c (Pipeline.arrRef spec0 w)) :=
    bigSep_congr fun w _ => whole_at m c A hA w (shareOf w)
  rw [hR, arrBufs0_eq, bigSep_W0]
  show _ ⊢ iprop((((c.tc : Thread nD τ).loc main_arg0) ↦{fullShare} V m c main_arg0) ∗ (((c.tc : Thread nD τ).loc main_arg2) ↦{fullShare} V m c main_arg2) ∗ (((c.tc : Thread nD τ).loc main_v0) ↦{fullShare} V m c main_v0) ∗ (((c.tc : Thread nD τ).loc main_arg4) ↦{fullShare} V m c main_arg4) ∗ (((c.tc : Thread nD τ).loc main_v1) ↦{fullShare} V m c main_v1) ∗ (((c.tc : Thread nD τ).loc main_arg1) ↦{fullShare.left} V m c main_arg1) ∗ (((c.tc : Thread nD τ).loc main_arg1) ↦{fullShare.right} V m c main_arg1) ∗ (((c.tc : Thread nD τ).loc main_v2) ↦{fullShare} V m c main_v2))
  iintro ⟨H0, H2, Hv0, H4, Hv1, H1, Hv2⟩
  icases H1 with ⟨H1l, H1r⟩
  isplitl [H0]; · iexact H0
  isplitl [H2]; · iexact H2
  isplitl [Hv0]; · iexact Hv0
  isplitl [H4]; · iexact H4
  isplitl [Hv1]; · iexact Hv1
  isplitl [H1l]; · iexact H1l
  isplitl [H1r]; · iexact H1r
  iexact Hv2

/-- Proof data that name `shareOf` as the inputs' shares hold every window's array at `shareOf`: the output window
    (window 7) its array whole, as `shareOf` says too. -/
theorem share_of_q {c : Dev nD} (dat : Pipeline.Dat τ (Elt F) Unit ℕ (UR sig nD τ) ℕ cfg0 c) (hq : dat.q = shareOf) :
    ∀ w, dat.share w = shareOf w := by
  intro w
  unfold Pipeline.Dat.share
  rw [hq]
  match w with
  | 0 => rfl
  | 1 => rfl
  | 2 => rfl
  | 3 => rfl
  | 4 => rfl
  | 5 => rfl
  | 6 => rfl
  | 7 => rfl
  | ⟨_ + 8, h⟩ => exact absurd h (Nat.not_lt.2 (Nat.le_add_left _ _))

/-- The deal as the frame run asks it: for proof data holding the windows' arrays at `shareOf` (`hq`) whose arrays at
    entry are the region-entry contents (`hA`), the buffers behind the arrays make the data's arrays before the first
    point (no write-back has happened: `Dat.arrAt w 0` is `dat.A w`). -/
theorem deal_dat (c : Dev nD) (dat : Pipeline.Dat τ (Elt F) Unit ℕ (UR sig nD τ) ℕ cfg0 c)
    (hq : ∀ w, dat.share w = shareOf w) (hA : ∀ w, dat.A w = V m c (Pipeline.arrRef spec0 w)) :
    (Pipeline.arrBufs spec0 c (V m c) : sProp 𝕄) ⊢ dat.arrays (dat.arrAt · 0) := by
  unfold Pipeline.Dat.arrays
  refine (deal m c dat.A hA).trans (Entails.of_eq (bigSep_congr fun w _ => ?_))
  rw [hq w]
  rfl

end Cert.Kernel.Frame

end
-- ==== Proof.LibSharedLaunch.lean ====
/-
  The frame run of a pipeline region whose input windows may SHARE an array.

  A region's launch hands the pipeline the distinct buffers behind its windows' arrays, each whole at the full share.
  When every window has an array of its own these are the windows' arrays one by one; when several input windows
  read one array (one operand passed to the kernel through several block specifications, each with its own index
  map) the array's full share has to be dealt among them, and how is the certificate's to say. This module states
  the frame run for that case: for any configuration, any proof data and any invariant over the scoped buffers the
  pipeline does not stage, given the deal (`hsplit`), every weakly fair execution of the program terminates with
  each array at what the proof data compute for it and every unscoped buffer that is no array at its contents at the
  region's entry. The region's invariant is entered from the scoped rest alone (the body is assumed not to draw
  random numbers) and returns it after the last point.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant for windows that may share arrays: the layout facts one by one (the
    arrays need not be distinct), the body obligation at every point, nothing owed, the program's shape up to the
    region with the buffers' contents there (`V`), the deal of the arrays' buffers among the windows (`hsplit`),
    and an invariant the scoped rest yields before the first point and gives back after the last. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (BI.Entails.refl _) V hmain hsplit
    (fun _ => iprop(emp)) (fun _ => iprop(emp)) (fun c => unscopedRest (cfgs p).spec c (V c))
    (fun c => by
      iintro H
      isplitr
      · iempintro
      · iexact H)
    (fun c => (show iprop(iprop(emp) ∗ scopedRest (cfgs p).spec c) ⊢ (scopedRest (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.WFrameMain.lean ====
/-
  The kernel's frame, for any float instance: every weakly fair execution of the program terminates, nothing faults,
  the six argument arrays end as they were launched, and the output array ends at what the pipeline's proof data
  compute for it. The adjacency matrix is read through two windows; its share is dealt a half to each at the
  region's entry. The region's invariant is the scratch buffers' (the support matrix and the hidden layer).
-/
import proofs.«145686_g28389733826938_cont_9to1_253_7_alg».proof.Proof.WFrameBody
import proofs.«145686_g28389733826938_cont_9to1_253_7_alg».proof.Proof.WFrameLaunch
import proofs.«145686_g28389733826938_cont_9to1_253_7_alg».proof.Proof.LibSharedLaunch

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates with each window's array at what the
    proof data compute for it and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := fun c => deal_dat m c (dats m 0 c) (share_of_q _ (q_eq m c)) (A_eq m c))
    (hin := hin m) (hout := hout m)

/-- The frame: the program runs to the end and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same with the output array named: it ends at the proof data's final contents of the output window's array. -/
theorem frame_out : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_out_of m ρ (dats m) (A_eq m) (run_main m ρ)

end Cert.Kernel.Frame

end
-- ==== Proof.FrameV.lean ====
/-
  What each TensorCore buffer of core `c` holds when the kernel's region is entered: the launch contents after the
  two host reshapes that precede it (each bias vector regarded as one row).
-/
import proofs.«145686_g28389733826938_cont_9to1_253_7_alg».proof.Proof.Gen.KernelIdeal.Launch

noncomputable section

namespace Cert.KernelIdeal.Frame

open Idealize.ShloMosaic Idealize.ShloMosaic.TcCoe Idealize.SL.Sem
open Idealize.SL Idealize.SL.RA
open Cert.KernelIdeal Cert.KernelIdeal.Gen

variable {F : FTy → Type} [FloatOps F]

/-- Core `c`'s buffers at the region's entry: as launched, then the host operations before the region applied. -/
abbrev V (m : (ℓ : Loc nD τ sig) → Buf (Elt F) ℓ) (c : Dev nD) (b : Ref sig .tc) : Buf (Elt F) ((c : Thread nD τ).loc b) :=
  StableHlo.after hostOps0 (fun b => m (c, b)) b

/-- The share each window holds its array at: the adjacency matrix, read through two windows, is held a half by each;
    every other array whole. -/
def shareOf : Fin 8 → PosShare TreeShare := fun
  | 0 => fullShare | 1 => fullShare | 2 => fullShare | 3 => fullShare | 4 => fullShare
  | 5 => fullShare.left | 6 => fullShare.right | 7 => fullShare
  | ⟨_ + 8, h⟩ => absurd h (Nat.not_lt.2 (Nat.le_add_left _ _))

end Cert.KernelIdeal.Frame

end
-- ==== Proof.FrameDefs.lean ====
/-
  What the kernel's frame is stated over, for any float instance.

  The kernel walks a grid of 2 × 16 points: the first coordinate is the layer, the second a block of 512 rows of the
  adjacency matrix, read as two windows of 256 rows each. It keeps two scratch buffers between points: the support
  matrix `s` (features times weights: stored whole at the first point of each layer) and the hidden layer `h`
  (rows 512·i … 512·i + 511 stored at point i of the first layer, nothing else of it touched). On the second layer it
  stores the two half blocks into its output window instead. This module names the branch conditions and decides
  them over the grid, names the staging buffers the body is called with, and states — through the body's own
  payload terms, so for any instance — the support matrix of each layer, the hidden layer row by row, the output
  block of each point, and the invariant the scratch buffers satisfy before each point.
-/
import proofs.«145686_g28389733826938_cont_9to1_253_7_alg».proof.Proof.FrameV
import proofs.«145686_g28389733826938_cont_9to1_253_7_alg».proof.Proof.Gen.KernelIdeal.Skeleton
import proofs.«145686_g28389733826938_cont_9to1_253_7_alg».proof.Proof.Gen.KernelIdeal.Points
import Idealize.ShloMosaic.Lib.Pipeline.FrameBody
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Cert.KernelIdeal Cert.KernelIdeal.Gen

variable {F : FTy → Type} [FloatOps F]

/-! ## The body's four branches, decided over the grid -/

/-- The first branch (store the first layer's support matrix) is taken at the point (0, 0) only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (store the second layer's support matrix) is taken at the point (1, 0) only. -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The third branch (store rows of the hidden layer) is taken on the first layer. -/
abbrev cond0_2 (i : grid0.Coords) : Prop := k0_cond3 i = 1#1
/-- The fourth branch (store the output block) is taken on the second layer. -/
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 16 :=
  (by decide +kernel : ∀ t : Fin grid0.N, cond0_1 (grid0.coords t) ↔ t.val = 16)
theorem hcond0_2 : ∀ t : Fin cfg0.N, cond0_2 (grid0.coords t) ↔ t.val < 16 :=
  (by decide +kernel : ∀ t : Fin grid0.N, cond0_2 (grid0.coords t) ↔ t.val < 16)
theorem hcond0_3 : ∀ t : Fin cfg0.N, cond0_3 (grid0.coords t) ↔ 16 ≤ t.val :=
  (by decide +kernel : ∀ t : Fin grid0.N, cond0_3 (grid0.coords t) ↔ 16 ≤ t.val)

/-- The rows of the hidden layer stored at point `t` start at row 512 · (t mod 16): the first half block there, -/
theorem off1_eq : ∀ t : Fin cfg0.N, k0_off1 (grid0.coords t) = ![512 * (t.val % 16), 0] :=
  (by decide +kernel : ∀ t : Fin grid0.N, k0_off1 (grid0.coords t) = ![512 * (t.val % 16), 0])
/-- the second 256 rows further. -/
theorem off2_eq : ∀ t : Fin cfg0.N, k0_off2 (grid0.coords t) = ![512 * (t.val % 16) + 256, 0] :=
  (by decide +kernel : ∀ t : Fin grid0.N, k0_off2 (grid0.coords t) = ![512 * (t.val % 16) + 256, 0])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- On the first layer the output window is idle: the body stores nothing into it, -/
theorem idleAt0_7 : ∀ t : Fin cfg0.N, t.val < 16 → cfg0.idle 7 (grid0.coords t) = true := by decide +kernel
/-- and the pipeline does not write its block back there. -/
theorem noFlush0_7 : ∀ t : Fin cfg0.N, t.val < 16 → (cfg0.win 7).flush t = false := by decide +kernel
/-- On the second layer it is live. -/
theorem liveAt0_7 : ∀ t : Fin cfg0.N, 16 ≤ t.val → cfg0.idle 7 (grid0.coords t) = false := by decide +kernel

/-! ## The staging and scratch buffers the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x32 .f32 := win0_7.stage (cfg0.slots t 7)
abbrev hs0_7 (t : Fin cfg0.N) : (ms0_7 t).IsWhole := hstage0_7 ((cfg0.slots t 7).cast nbuf0_7)
/-- The support matrix's scratch buffer, -/
abbrev scM0 : Memref sig .tc .vmem S8192x32 .bf16 := Memref.whole cc0_scratch0
/-- and the hidden layer's. -/
abbrev scM1 : Memref sig .tc .vmem S8192x32 .f32 := Memref.whole cc0_scratch1

/-! ## What the body's stores leave, as pieces (newest first) over the values it loaded -/

/-- The two stores of a first-layer point into the hidden layer: the first half block at the point's row offset,
    then the second 256 rows further. -/
def hPieces (i : grid0.Coords) (hc2 : cond0_2 i) (r1 r2 : Vec F S1x32 .f32) (s : Vec F S8192x32 .bf16)
    (a5 a6 : Vec F S256x8192 .f32) : List (View.Piece (Elt F) S8192x32 .f32) :=
  [⟨Rect.unit (s := S8192x32) (k0_off2 i) S256x32.size (k0_off2_inb i hc2), k0_pay3 (k0_pay8 i r1 r2 s a6) (k0_pay9 i r1 r2 s a6)⟩,
   ⟨Rect.unit (s := S8192x32) (k0_off1 i) S256x32.size (k0_off1_inb i hc2), k0_pay2 (k0_pay7 i r1 r2 s a5)⟩]

/-- The two stores of a second-layer point into its output block: rows 0 … 255, then rows 256 … 511. -/
def oPieces (i : grid0.Coords) (r1 r2 : Vec F S1x32 .f32) (s : Vec F S8192x32 .bf16)
    (a5 a6 : Vec F S256x8192 .f32) : List (View.Piece (Elt F) S512x32 .f32) :=
  [⟨Rect.unit (s := S512x32) ![256, 0] S256x32.size inb_S512x32_S256x32_256_0, k0_pay1 (k0_pay8 i r1 r2 s a6) (k0_pay9 i r1 r2 s a6)⟩,
   ⟨Rect.unit (s := S512x32) ![0, 0] S256x32.size inb_S512x32_S256x32_0_0, k0_pay7 i r1 r2 s a5⟩]

/-! ## The windows' blocks -/

variable (m : (ℓ : Loc nD τ sig) → Buf (Elt F) ℓ)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes, point by point, through its payload terms -/

/-- The first point of the first layer, -/
abbrev t0 : Fin cfg0.N := ⟨0, by decide⟩
/-- and of the second. -/
abbrev t16 : Fin cfg0.N := ⟨16, by decide⟩

/-- The rectified first half block of point `t` over a support matrix `s`. -/
def yA (c : Dev nD) (t : Fin cfg0.N) (s : Vec F S8192x32 .bf16) : FVec F S256x32 .f32 :=
  k0_pay7 (grid0.coords t) (iblk m c 2 t) (iblk m c 4 t) s (iblk m c 5 t)
/-- The second half block before the rectifier, -/
def pB (c : Dev nD) (t : Fin cfg0.N) (s : Vec F S8192x32 .bf16) : FVec F S256x32 .f32 :=
  k0_pay8 (grid0.coords t) (iblk m c 2 t) (iblk m c 4 t) s (iblk m c 6 t)
/-- and where it is at least zero. -/
def qB (c : Dev nD) (t : Fin cfg0.N) (s : Vec F S8192x32 .bf16) : IVec S256x32 1 :=
  k0_pay9 (grid0.coords t) (iblk m c 2 t) (iblk m c 4 t) s (iblk m c 6 t)

/-- The first layer's support matrix: features times first weights. -/
def S0 (c : Dev nD) : FVec F S8192x32 .bf16 := k0_pay4 (iblk m c 0 t0) (iblk m c 1 t0)

/-- The point of the first layer that stores row `r` of the hidden layer. -/
def ptOf (y : S8192x32.Idx) : Fin cfg0.N := ⟨(y 0).val / 512, by
  have h : (y 0).val < 8192 := (y 0).isLt
  have hN : cfg0.N = 32 := N_0
  omega⟩

/-- The hidden layer, row by row: row `r` is row `r mod 512` of the block stored at point `r / 512`, in its first
    half block below 256 and in its second from there. -/
def H (c : Dev nD) : Vec F S8192x32 .f32 := fun y =>
  if h : (y 0).val % 512 < 256 then
    k0_pay2 (yA m c (ptOf y) (S0 m c)) (ix2 (⟨(y 0).val % 512, h⟩ : Fin 256) (⟨(y 1).val, (y 1).isLt⟩ : Fin 32))
  else
    k0_pay3 (pB m c (ptOf y) (S0 m c)) (qB m c (ptOf y) (S0 m c))
      (ix2 (⟨(y 0).val % 512 - 256, by have := Nat.mod_lt (y 0).val (show 0 < 512 by decide); omega⟩ : Fin 256) (⟨(y 1).val, (y 1).isLt⟩ : Fin 32))

/-- The second layer's support matrix: hidden layer times second weights. -/
def S1 (c : Dev nD) : FVec F S8192x32 .bf16 := k0_pay5 (H m c) (iblk m c 3 t16)

/-- The output block of point `t` of the second layer: the two rectified half blocks over the second support matrix. -/
def Out (c : Dev nD) (t : Fin cfg0.N) : Vec F S512x32 .f32 := fun y =>
  if h : (y 0).val < 256 then
    yA m c t (S1 m c) (ix2 (⟨(y 0).val, h⟩ : Fin 256) (⟨(y 1).val, (y 1).isLt⟩ : Fin 32))
  else
    k0_pay1 (pB m c t (S1 m c)) (qB m c t (S1 m c))
      (ix2 (⟨(y 0).val - 256, by have h2 : (y 0).val < 512 := (y 0).isLt; omega⟩ : Fin 256) (⟨(y 1).val, (y 1).isLt⟩ : Fin 32))

/-- What the two scratch buffers hold before point `n` (after `n` points): on the first layer the support matrix is
    the first layer's and the rows of the hidden layer stored so far are its rows; from the second layer's first point
    on the support matrix is the second layer's and the hidden layer is complete. Before the first point: nothing. -/
def Inv (c : Dev nD) (n : ℕ) (s : Vec F S8192x32 .bf16) (h : Vec F S8192x32 .f32) : Prop :=
  (1 ≤ n → n ≤ 16 → s = S0 m c) ∧ (17 ≤ n → s = S1 m c) ∧ ∀ y : S8192x32.Idx, (y 0).val < 512 * min n 16 → h y = H m c y

end Cert.KernelIdeal.Frame

end
-- ==== Proof.FrameInv.lean ====
/-
  How the scratch buffers' invariant moves from point to point, and what a second-layer point leaves in its output
  block — for any float instance: only where the body's stores land matters here, not what they compute.

  A first-layer point `t` stores rows 512·t … 512·t + 255 and 512·t + 256 … 512·t + 511 of the hidden layer and
  touches no other row, so the rows below 512·t stay what they were and the 512 new rows are, by the definition of
  the hidden layer row by row, its rows. After sixteen such points every row is stored. A second-layer point stores
  the two halves of its output block, which cover it.
-/
import proofs.«145686_g28389733826938_cont_9to1_253_7_alg».proof.Proof.FrameDefs
import Idealize.ShloMosaic.Lib.WritesUnit

set_option maxRecDepth 16384

noncomputable section

namespace Cert.KernelIdeal.Frame

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- On the first layer the grid's second coordinate is the point's number. -/
theorem coords1_of_lt : ∀ t : Fin cfg0.N, t.val < 16 → ((grid0.coords t) 1).val = t.val :=
  (by decide +kernel : ∀ t : Fin grid0.N, t.val < 16 → ((grid0.coords t) 1).val = t.val)

/-- The hidden layer's scratch buffer after the two stores of first-layer point `t`, the support matrix being the
    first layer's: a row below 512·(t + 1) is the hidden layer's row if the rows below 512·t were. -/
theorem hstep (c : Dev nD) (t : Fin cfg0.N) (ht : t.val < 16) (hc2 : cond0_2 (grid0.coords t))
    (h : Vec F S8192x32 .f32) (hinv : ∀ y : S8192x32.Idx, (y 0).val < 512 * t.val → h y = H m c y)
    (y : S8192x32.Idx) (hy : (y 0).val < 512 * (t.val + 1)) :
    scM1.view.read (Elt F) (scM1.view.writes (Elt F) ((Memref.isWhole_whole cc0_scratch1).unread h)
        (hPieces (grid0.coords t) hc2 (iblk m c 2 t) (iblk m c 4 t) (S0 m c) (iblk m c 5 t) (iblk m c 6 t))) y
      = H m c y := by
  have hi1 : ((grid0.coords t) 1).val = t.val := coords1_of_lt t ht
  have hoff1 : k0_off1 (grid0.coords t) = ![512 * t.val, 0] := by rw [k0_off1_eq, hi1]
  have hoff2 : k0_off2 (grid0.coords t) = ![512 * t.val + 256, 0] := by rw [k0_off2_eq, hi1]
  have hcol : (y 1).val < 32 := (y 1).isLt
  unfold hPieces
  by_cases h0 : (y 0).val < 512 * t.val
  · rw [View.read_writes_cons_rows_of_not_mem _ _ _ _ _ y hoff2 (W := 256) rfl (Or.inl (by omega)),
      View.read_writes_cons_rows_of_not_mem _ _ _ _ _ y hoff1 (W := 256) rfl (Or.inl h0), View.writes_nil,
      Memref.IsWhole.read_unread]
    exact hinv y h0
  · by_cases h1 : (y 0).val < 512 * t.val + 256
    · have hmod : (y 0).val % 512 < 256 := by omega
      have hpt : ptOf y = t := Fin.ext (by show (y 0).val / 512 = t.val; omega)
      refine (View.read_writes_cons_rows_of_not_mem _ _ _ _ _ y hoff2 (W := 256) rfl (Or.inl h1)).trans ?_
      refine (View.read_writes_cons_rows_of_mem (size := S256x32.size) _ _ _ _ _ y
          (ix2 (⟨(y 0).val % 512, hmod⟩ : Fin 256) (⟨(y 1).val, hcol⟩ : Fin 32)) hoff1
          (by show (y 0).val = 512 * t.val + (y 0).val % 512; omega) rfl).trans ?_
      unfold H
      rw [dif_pos hmod, hpt]
      rfl
    · have hmod : ¬ (y 0).val % 512 < 256 := by omega
      have hpt : ptOf y = t := Fin.ext (by show (y 0).val / 512 = t.val; omega)
      refine (View.read_writes_cons_rows_of_mem (size := S256x32.size) _ _ _ _ _ y
          (ix2 (⟨(y 0).val % 512 - 256, by omega⟩ : Fin 256) (⟨(y 1).val, hcol⟩ : Fin 32)) hoff2
          (by show (y 0).val = 512 * t.val + 256 + ((y 0).val % 512 - 256); omega) rfl).trans ?_
      unfold H
      rw [dif_neg hmod, hpt]
      rfl

/-- After the first point: the support matrix is the first layer's and rows 0 … 511 of the hidden layer are stored. -/
theorem inv_A (c : Dev nD) (hc2 : cond0_2 (grid0.coords t0)) (h : Vec F S8192x32 .f32) :
    Inv m c 1 (k0_pay4 (iblk m c 0 t0) (iblk m c 1 t0))
      (scM1.view.read (Elt F) (scM1.view.writes (Elt F) ((Memref.isWhole_whole cc0_scratch1).unread h)
        (hPieces (grid0.coords t0) hc2 (iblk m c 2 t0) (iblk m c 4 t0) (k0_pay4 (iblk m c 0 t0) (iblk m c 1 t0)) (iblk m c 5 t0) (iblk m c 6 t0)))) :=
  ⟨fun _ _ => rfl, fun h17 => absurd h17 (by decide),
    fun y hy => hstep m c t0 (by decide) hc2 h (fun y h0 => absurd h0 (by show ¬ (y 0).val < 512 * 0; omega)) y
      (by have : min 1 16 = 1 := by decide
          rw [this] at hy; exact hy)⟩

/-- A later first-layer point keeps the support matrix and adds its 512 rows. -/
theorem inv_B (c : Dev nD) (t : Fin cfg0.N) (h1 : 1 ≤ t.val) (ht : t.val < 16) (hc2 : cond0_2 (grid0.coords t))
    (s : Vec F S8192x32 .bf16) (h : Vec F S8192x32 .f32) (hI : Inv m c t.val s h) :
    Inv m c (t.val + 1) s
      (scM1.view.read (Elt F) (scM1.view.writes (Elt F) ((Memref.isWhole_whole cc0_scratch1).unread h)
        (hPieces (grid0.coords t) hc2 (iblk m c 2 t) (iblk m c 4 t) s (iblk m c 5 t) (iblk m c 6 t)))) := by
  obtain ⟨hs, -, hh⟩ := hI
  have hs' : s = S0 m c := hs h1 (by omega)
  subst hs'
  have hmin : min t.val 16 = t.val := by omega
  have hmin' : min (t.val + 1) 16 = t.val + 1 := by omega
  exact ⟨fun _ _ => rfl, fun h17 => absurd h17 (by omega),
    fun y hy => hstep m c t ht hc2 h (fun y h0 => hh y (by rw [hmin]; exact h0)) y (by rw [hmin'] at hy; exact hy)⟩

/-- The second layer's first point stores the second support matrix, computed from the complete hidden layer. -/
theorem inv_C (c : Dev nD) (s : Vec F S8192x32 .bf16) (h : Vec F S8192x32 .f32) (hI : Inv m c 16 s h) :
    Inv m c 17 (k0_pay5 h (iblk m c 3 t16)) h := by
  obtain ⟨-, -, hh⟩ := hI
  have hH : h = H m c := funext fun y => hh y (by
    have hr : (y 0).val < 8192 := (y 0).isLt
    have : min 16 16 = 16 := by decide
    rw [this]; omega)
  subst hH
  exact ⟨fun _ h16 => absurd h16 (by decide), fun _ => rfl, fun y _ => rfl⟩

/-- Later second-layer points touch neither scratch buffer. -/
theorem inv_D (c : Dev nD) (n : ℕ) (hn : 17 ≤ n) (s : Vec F S8192x32 .bf16) (h : Vec F S8192x32 .f32)
    (hI : Inv m c n s h) : Inv m c (n + 1) s h := by
  obtain ⟨-, hs, hh⟩ := hI
  have hmin : min n 16 = 16 := by omega
  have hmin' : min (n + 1) 16 = 16 := by omega
  exact ⟨fun _ h16 => absurd h16 (by omega), fun _ => hs hn, fun y hy => hh y (by rw [hmin]; rw [hmin'] at hy; exact hy)⟩

/-- From the second layer on the support matrix is the second layer's. -/
theorem inv_s1 (c : Dev nD) (n : ℕ) (hn : 17 ≤ n) (s : Vec F S8192x32 .bf16) (h : Vec F S8192x32 .f32)
    (hI : Inv m c n s h) : s = S1 m c := hI.2.1 hn

/-- The output block after a second-layer point's two half stores, over the second support matrix: the block
    `Out`, whatever the buffer held before. -/
theorem out_eq (c : Dev nD) (t : Fin cfg0.N) (M : Memref sig .tc .vmem S512x32 .f32) (hM : M.IsWhole)
    (x7 : Vec F S512x32 .f32) :
    M.view.read (Elt F) (M.view.writes (Elt F) (hM.unread x7)
        (oPieces (grid0.coords t) (iblk m c 2 t) (iblk m c 4 t) (S1 m c) (iblk m c 5 t) (iblk m c 6 t)))
      = Out m c t := by
  funext y
  have hcol : (y 1).val < 32 := (y 1).isLt
  have hrow : (y 0).val < 512 := (y 0).isLt
  unfold oPieces
  by_cases h : (y 0).val < 256
  · refine (View.read_writes_cons_rows_of_not_mem _ _ _ _ _ y (o := 256) rfl (W := 256) rfl (Or.inl h)).trans ?_
    refine (View.read_writes_cons_rows_of_mem (size := S256x32.size) _ _ _ _ _ y
        (ix2 (⟨(y 0).val, h⟩ : Fin 256) (⟨(y 1).val, hcol⟩ : Fin 32)) (o := 0) rfl
        (by show (y 0).val = 0 + (y 0).val; omega) rfl).trans ?_
    unfold Out
    rw [dif_pos h]
    rfl
  · refine (View.read_writes_cons_rows_of_mem (size := S256x32.size) _ _ _ _ _ y
        (ix2 (⟨(y 0).val - 256, by omega⟩ : Fin 256) (⟨(y 1).val, hcol⟩ : Fin 32)) (o := 256) rfl
        (by show (y 0).val = 256 + ((y 0).val - 256); omega) rfl).trans ?_
    unfold Out
    rw [dif_neg h]
    rfl

end Cert.KernelIdeal.Frame

end
-- ==== Proof.FrameData.lean ====
/-
  The proof data of the kernel's one pipeline, for any float instance: at entry every window's array is what the
  region finds; after the body at a point every input window's buffer still holds its block and, on the second
  layer, the output window's buffer holds the point's output block; between points the two scratch buffers hold
  some contents satisfying the invariant of that point; the adjacency matrix's two windows hold half its share each.
-/
import proofs.«145686_g28389733826938_cont_9to1_253_7_alg».proof.Proof.FrameInv
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Before any point the invariant asks nothing. -/
theorem inv_zero (c : Dev nD) (s : Vec F S8192x32 .bf16) (h : Vec F S8192x32 .f32) : Inv m c 0 s h :=
  ⟨fun h1 => absurd h1 (by decide), fun h17 => absurd h17 (by decide),
    fun y hy => absurd hy (by have : min 0 16 = 0 := by decide
                              rw [this]; omega)⟩

/-- The two scratch buffers before point `n`: at some contents that satisfy the invariant there. -/
def PhiS (c : Dev nD) (n : ℕ) : sProp 𝕄 :=
  iprop(∃ (s : Vec F S8192x32 .bf16) (h : Vec F S8192x32 .f32),
    owns (c : Thread nD τ) scM0 fullShare s ∗ owns (c : Thread nD τ) scM1 fullShare h ∗ ⌜Inv m c n s h⌝)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Out m c t
  Φ t := PhiS m c t.val
  q := shareOf
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem q_eq (c : Dev nD) : (dats m 0 c).q = shareOf := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = Out m c t := by dsimp only [dats]

/-! Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-- The scoped buffers the pipeline does not stage are the two scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- What the launch hands the region is the invariant before the first point. -/
theorem hin (c : Dev nD) :
    (Pipeline.scopedRest (Ix := Unit) (Name := ℕ) (U := UR sig nD τ) (Lvl := ℕ) (Val := Elt F) spec0 c : sProp 𝕄)
      ⊢ (dats m 0 c).Φ 0 := by
  rw [Phi_eq, scoped_eq]
  unfold PhiS
  iintro ⟨⟨%s, Hs⟩, ⟨%h, Hh⟩⟩
  iexists s; iexists h
  isplitl [Hs]; · iexact Hs
  isplitl [Hh]; · iexact Hh
  ipureintro; exact inv_zero m c s h

/-- After the last point the invariant gives the scratch buffers back. -/
theorem hout (c : Dev nD) :
    (dats m 0 c).Φ (Fin.last cfg0.N)
      ⊢ (Pipeline.scopedRest (Ix := Unit) (Name := ℕ) (U := UR sig nD τ) (Lvl := ℕ) (Val := Elt F) spec0 c : sProp 𝕄) := by
  rw [Phi_eq, scoped_eq]
  unfold PhiS
  iintro ⟨%s, %h, Hs, Hh, -⟩
  isplitl [Hs]
  · iexists _; iexact Hs
  · iexists _; iexact Hh

end Cert.KernelIdeal.Frame

end
-- ==== Proof.FrameRun0.lean ====
/-
  The body's run at the points of the first layer, for any float instance.

  At a point of the first layer the body loads the two bias rows, the support matrix and the two half blocks of the
  adjacency rows, and stores the two rectified half blocks into the hidden layer's scratch buffer at the point's row
  offset; at the first point of all it first computes the support matrix from the features and the first weights and
  stores it whole, so that what it then loads is what it has just stored. Run from whole buffers held at given contents,
  the body ends with every window's buffer as it was, the support matrix's buffer at the stored matrix (first point) or
  as it was (the other points), and the hidden layer's buffer at its former contents with the point's two pieces
  written — the pieces stated over the given contents themselves: a load of a whole buffer through the rectangle of
  its own sizes at zero offsets reads the contents, and one store through that rectangle leaves its payload.
-/
import proofs.«145686_g28389733826938_cont_9to1_253_7_alg».proof.Proof.FrameDefs
import proofs.«145686_g28389733826938_cont_9to1_253_7_alg».proof.Proof.Gen.KernelIdeal.Skeleton
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, however they are spelt. -/
private theorem hz : (![0, 0] : Fin 2 → ℕ) = fun _ => 0 := funext fun a => by fin_cases a <;> rfl

/-- A load of a whole buffer through the rectangle of its own sizes at zero offsets, the buffer held at the raw
    contents that read `X`, reads `X`. -/
private theorem readAt_whole {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- One store through the rectangle of a buffer's own sizes at zero offsets leaves its payload, whatever the buffer
    held. -/
private theorem read_write_whole {S : Shape} {e : EltTy} (v : View sig .tc .vmem S e) (f : v.ty.Contents (Elt F))
    {off : Fin S.rank → ℕ} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero ho inb y⟩),
    View.canon_unit_zero ho]

/-- The first point of the first layer: the support matrix is computed and stored whole, then the point's two half
    blocks of the hidden layer are stored over it. -/
theorem runA (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : cond0_0 i) (hc1 : ¬cond0_1 i) (hc2 : cond0_2 i) (hc3 : ¬cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay4 x0 x1) ∗ owns (c : Thread nD τ) arg11 fullShare (arg11.view.read (Elt F) (arg11.view.writes (Elt F) (harg11.unread xh) (hPieces i hc2 x2 x4 (k0_pay4 x0 x1) x5 x6)))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS]
  · iexists _; isplitr; swap
    · iexact HS
    ipureintro
    sl_unfold_run_names
    rw [readAt_whole harg2 x0 hz, readAt_whole harg3 x1 hz, read_write_whole arg10.view _ hz]
  iexists _; isplitr; swap
  · iexact HH
  ipureintro
  unfold hPieces
  dsimp only
  sl_unfold_run_names
  rw [readAt_whole harg4 x2 hz, readAt_whole harg6 x4 hz, readAt_whole harg8 x6 hz, readAt_whole harg7 x5 hz,
    readAt_whole harg2 x0 hz, readAt_whole harg3 x1 hz, View.readCov_unit_zero arg10.view hz]

/-- The other points of the first layer: the support matrix is only read, and the point's two half blocks of the
    hidden layer are stored. -/
theorem runB (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : ¬cond0_1 i) (hc2 : cond0_2 i) (hc3 : ¬cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare (arg11.view.read (Elt F) (arg11.view.writes (Elt F) (harg11.unread xh) (hPieces i hc2 x2 x4 xs x5 x6)))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS]
  · iexists _; isplitr; · ipureintro; exact harg10.read_unread _
    iexact HS
  iexists _; isplitr; swap
  · iexact HH
  ipureintro
  unfold hPieces
  dsimp only
  rw [readAt_whole harg4 x2 hz, readAt_whole harg6 x4 hz, readAt_whole harg10 xs hz, readAt_whole harg8 x6 hz,
    readAt_whole harg7 x5 hz]

end Cert.KernelIdeal.Frame

end
-- ==== Proof.FrameRun1.lean ====
/-
  The body's runs on the second layer, for any float instance.

  On the second layer the body stores the two rectified half blocks into its output block and leaves every other
  buffer as it found it, except at the layer's first point, where it first stores the second support matrix — the
  hidden layer times the second weights — through the whole of its scratch buffer and then reads it back. Each run
  is stated with the values the body loads as variables: the output block ends as its two stored pieces over what
  it held, and at the first point the support matrix's buffer ends holding the product.
-/
import proofs.«145686_g28389733826938_cont_9to1_253_7_alg».proof.Proof.FrameDefs
import proofs.«145686_g28389733826938_cont_9to1_253_7_alg».proof.Proof.Gen.KernelIdeal.Skeleton
import Idealize.ShloMosaic.Lib.Ring
import Idealize.ShloMosaic.Lib.Tactic
import Idealize.ShloMosaic.Lib.Pipeline.FrameBody
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, however spelt. -/
private theorem zero_off2 : (![0, 0] : Fin 2 → ℕ) = fun _ => 0 :=
  funext fun a => by match a with | ⟨0, _⟩ => rfl | ⟨1, _⟩ => rfl

/-- One store through the whole support matrix's buffer reads back as its payload, whatever the buffer held. -/
private theorem whole_store_read (m : Memref sig .tc .vmem S8192x32 .bf16) (f : m.view.ty.Contents (Elt F))
    (w : Vec F S8192x32 .bf16) :
    m.view.read (Elt F) (m.view.writes (Elt F) f
      [⟨Rect.unit (s := S8192x32) ![0, 0] S8192x32.size inb_S8192x32_S8192x32_0_0, w⟩]) = w :=
  (View.read_writes_eq_canon m.view f
      [⟨Rect.unit (s := S8192x32) ![0, 0] S8192x32.size inb_S8192x32_S8192x32_0_0, w⟩]
      (fun y => ⟨_, List.mem_singleton_self _,
        View.mem_set_unit_zero (S := S8192x32) zero_off2 inb_S8192x32_S8192x32_0_0 y⟩)).trans
    (View.canon_unit_zero (S := S8192x32) zero_off2 inb_S8192x32_S8192x32_0_0 w)

/-- The first point of the second layer: the support matrix is stored, read back, and the output block written. -/
theorem runC (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : cond0_1 i) (hc2 : ¬cond0_2 i) (hc3 : cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (arg9.view.read (Elt F) (arg9.view.writes (Elt F) (harg9.unread x7) (oPieces i x2 x4 (k0_pay5 xh x3) x5 x6))) ∗ owns (c : Thread nD τ) arg10 fullShare (k0_pay5 xh x3) ∗ owns (c : Thread nD τ) arg11 fullShare xh) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap
    · iexact H7
    · ipureintro
      unfold oPieces
      sl_unfold_run_names
      dsimp only
      simp only [View.readAt_eq_ld, harg4.read_unread, harg5.read_unread, harg6.read_unread, harg7.read_unread, harg8.read_unread, harg11.read_unread,
        View.ld_unit_zero (S := S1x32) zero_off2, View.ld_unit_zero (S := S8192x32) zero_off2, View.ld_unit_zero (S := S256x8192) zero_off2,
        View.ld_unit_zero (S := S32x32) zero_off2, View.readCov_unit_zero (S := S8192x32) _ zero_off2]
  isplitl [HS]
  · iexists _; isplitr
    swap
    · iexact HS
    · ipureintro
      sl_unfold_run_names
      simp only [View.readAt_eq_ld, harg5.read_unread, harg11.read_unread,
        View.ld_unit_zero (S := S8192x32) zero_off2, View.ld_unit_zero (S := S32x32) zero_off2]
      exact whole_store_read arg10 (harg10.unread xs) (k0_pay5 xh x3)
  iexists _; isplitr; · ipureintro; exact harg11.read_unread _
  iexact HH

/-- The other points of the second layer: only the output block is written. -/
theorem runD (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S256x8192 .f32) (harg7 : arg7.IsWhole) (arg8 : Memref sig .tc .vmem S256x8192 .f32) (harg8 : arg8.IsWhole) (arg9 : Memref sig .tc .vmem S512x32 .f32) (harg9 : arg9.IsWhole) (arg10 : Memref sig .tc .vmem S8192x32 .bf16) (harg10 : arg10.IsWhole) (arg11 : Memref sig .tc .vmem S8192x32 .f32) (harg11 : arg11.IsWhole)
    (hc0 : ¬cond0_0 i) (hc1 : ¬cond0_1 i) (hc2 : ¬cond0_2 i) (hc3 : cond0_3 i)
    (x0 : Vec F S8192x128 .f32) (x1 : Vec F S128x32 .f32) (x2 : Vec F S1x32 .f32) (x3 : Vec F S32x32 .f32) (x4 : Vec F S1x32 .f32) (x5 : Vec F S256x8192 .f32) (x6 : Vec F S256x8192 .f32) (x7 : Vec F S512x32 .f32) (xs : Vec F S8192x32 .bf16) (xh : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs ∗ owns (c : Thread nD τ) arg11 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (arg9.view.read (Elt F) (arg9.view.writes (Elt F) (harg9.unread x7) (oPieces i x2 x4 xs x5 x6))) ∗ owns (c : Thread nD τ) arg10 fullShare xs ∗ owns (c : Thread nD τ) arg11 fullShare xh) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fh, %hfh, HH⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs; obtain rfl := harg11.eq_unread hfh
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap
    · iexact H7
    · ipureintro
      unfold oPieces
      dsimp only
      simp only [View.readAt_eq_ld, harg4.read_unread, harg6.read_unread, harg7.read_unread, harg8.read_unread, harg10.read_unread,
        View.ld_unit_zero (S := S1x32) zero_off2, View.ld_unit_zero (S := S8192x32) zero_off2, View.ld_unit_zero (S := S256x8192) zero_off2]
  isplitl [HS]
  · iexists _; isplitr; · ipureintro; exact harg10.read_unread _
    iexact HS
  iexists _; isplitr; · ipureintro; exact harg11.read_unread _
  iexact HH

end Cert.KernelIdeal.Frame

end
-- ==== Proof.FrameBody.lean ====
/-
  The body obligation of the kernel's pipeline, for any float instance. At a point the body is handed every input
  window's buffer at its block, the output window's buffer at whatever it holds, and the two scratch buffers at
  contents satisfying the point's invariant. The point's number decides which of the body's four control cases
  it is in; that case's run applies, and what it leaves satisfies the next point's invariant: on the first layer
  the hidden layer gains the point's 512 rows, on the second the output buffer is left at the point's output block.
-/
import proofs.«145686_g28389733826938_cont_9to1_253_7_alg».proof.Proof.FrameData
import proofs.«145686_g28389733826938_cont_9to1_253_7_alg».proof.Proof.FrameRun0
import proofs.«145686_g28389733826938_cont_9to1_253_7_alg».proof.Proof.FrameRun1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_eq, Phi_eq, Fin.coe_castSucc, Fin.val_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hN : t.val < 32 := lt_of_lt_of_eq t.isLt N_0
  unfold PhiS
  by_cases hl : t.val < 16
  · rw [Dat.leavesExact_idle (dats m 0 c) 7 t (idleAt0_7 t hl) (noFlush0_7 t hl)]
    have hc1 : ¬cond0_1 (grid0.coords t) := fun hh => by have := (hcond0_1 t).mp hh; omega
    have hc2 : cond0_2 (grid0.coords t) := (hcond0_2 t).mpr hl
    have hc3 : ¬cond0_3 (grid0.coords t) := fun hh => by have := (hcond0_3 t).mp hh; omega
    by_cases hz : t.val = 0
    · have hc0 : cond0_0 (grid0.coords t) := (hcond0_0 t).mpr hz
      obtain rfl : t = t0 := Fin.ext hz
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0 (Memref.isWhole_whole _) scM1 (Memref.isWhole_whole _) hc0 hc1 hc2 hc3 (iblk m c 0 t0) (iblk m c 1 t0) (iblk m c 2 t0) (iblk m c 3 t0) (iblk m c 4 t0) (iblk m c 5 t0) (iblk m c 6 t0) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_A m c hc2 h
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hc0 : ¬cond0_0 (grid0.coords t) := fun hh => hz ((hcond0_0 t).mp hh)
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 hc2 hc3 (iblk m c 0 t) (iblk m c 1 t) (iblk m c 2 t) (iblk m c 3 t) (iblk m c 4 t) (iblk m c 5 t) (iblk m c 6 t) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_B m c t (by omega) hl hc2 s h hI
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hl' : 16 ≤ t.val := by omega
    rw [show (dats m 0 c).leavesExact 7 t = owns (c : Thread nD τ) (ms0_7 t) fullShare ((dats m 0 c).after 7 t) from by
      unfold Dat.leavesExact; rw [liveAt0_7 t hl'], after0_7]
    have hc0 : ¬cond0_0 (grid0.coords t) := fun hh => by have := (hcond0_0 t).mp hh; omega
    have hc2 : ¬cond0_2 (grid0.coords t) := fun hh => by have := (hcond0_2 t).mp hh; omega
    have hc3 : cond0_3 (grid0.coords t) := (hcond0_3 t).mpr hl'
    by_cases hz : t.val = 16
    · have hc1 : cond0_1 (grid0.coords t) := (hcond0_1 t).mpr hz
      obtain rfl : t = t16 := Fin.ext hz
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hI' := inv_C m c s h hI
      have hS : k0_pay5 h (iblk m c 3 t16) = S1 m c := hI'.2.1 (le_refl 17)
      iapply (runC c (grid0.coords t16) (ms0_0 t16) (hs0_0 t16) (ms0_1 t16) (hs0_1 t16) (ms0_2 t16) (hs0_2 t16) (ms0_3 t16) (hs0_3 t16) (ms0_4 t16) (hs0_4 t16) (ms0_5 t16) (hs0_5 t16) (ms0_6 t16) (hs0_6 t16) (ms0_7 t16) (hs0_7 t16) scM0 (Memref.isWhole_whole _) scM1 (Memref.isWhole_whole _) hc0 hc1 hc2 hc3 (iblk m c 0 t16) (iblk m c 1 t16) (iblk m c 2 t16) (iblk m c 3 t16) (iblk m c 4 t16) (iblk m c 5 t16) (iblk m c 6 t16) _ s h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact hI'
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [← out_eq m c t16 (ms0_7 t16) (hs0_7 t16) ((dats m 0 c).before 7 t16 d7), ← hS]
      iexact H7
    · have hc1 : ¬cond0_1 (grid0.coords t) := fun hh => hz ((hcond0_1 t).mp hh)
      iintro ⟨⟨%s, %h, Hs, Hh, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hS : s = S1 m c := inv_s1 m c t.val (by omega) s h hI
      subst hS
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 hc2 hc3 (iblk m c 0 t) (iblk m c 1 t) (iblk m c 2 t) (iblk m c 3 t) (iblk m c 4 t) (iblk m c 5 t) (iblk m c 6 t) _ (S1 m c) h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      isplitl [Hh]; · iexact Hh
      iintro ⟨H0, H1, H2, H3, H4, H5, H6, H7, Hs, Hh⟩
      isplitl [Hs Hh]
      · iexists _; iexists _
        isplitl [Hs]; · iexact Hs
        isplitl [Hh]; · iexact Hh
        ipureintro; exact inv_D m c t.val (by omega) (S1 m c) h hI
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [← out_eq m c t (ms0_7 t) (hs0_7 t) ((dats m 0 c).before 7 t d7)]
      iexact H7

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.KernelIdeal.Frame

end
-- ==== Proof.FrameLaunch.lean ====
/-
  The launch side of the kernel's frame, at any float instance: the program up to its one region, what the argument
  arrays hold there, how the buffers behind the windows' arrays are dealt to the windows (the adjacency matrix, read
  through two windows, a half share to each), and the frame claim's post read off the frame run's.
-/
import proofs.«145686_g28389733826938_cont_9to1_253_7_alg».proof.Proof.Gen.KernelIdeal.Launch
import proofs.«145686_g28389733826938_cont_9to1_253_7_alg».proof.Proof.Gen.KernelIdeal.Skeleton
import proofs.«145686_g28389733826938_cont_9to1_253_7_alg».proof.Proof.Gen.KernelIdeal.Points
import proofs.«145686_g28389733826938_cont_9to1_253_7_alg».proof.Proof.FrameV
import Idealize.ShloMosaic.Lib.Pipeline.FrameBody

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Neither host reshape allocates. -/
theorem hostOps0_fresh : (hostOps0 : List (HloOp τ sig (Elt F))).Forall fun op => op.fresh = ∅ := by
  simp only [List.Forall]; repeat' constructor

/-- The program is the two host reshapes and then the region: holding the unscoped buffers as launched it reaches
    the region holding them at `V m`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The frame claim's post from the frame run's -/

/-- The frame from a frame run: for any proof data whose arrays are the region-entry contents (`hA`), a run to the
    frame run's post read at the argument arrays — a staged input is never written (`Dat.arrAt_in`), an array no
    window stages bypasses the region (the post's second clause), each then as launched (`V_main_argK`). -/
theorem frame_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c)⟩) h

/-- The same run with the output array named: window 7's array ends at what the proof data compute for it after the
    last point, and the argument arrays end as launched. -/
theorem frame_out_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v2) = (dats 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
      ((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c)⟩) h

/-! ## The deal of the arrays' buffers to the windows -/

/-- A window's array is a whole buffer: held at contents `A w` on its index set, it is the buffer behind it held at the
    region-entry contents. -/
theorem whole_at (c : Dev nD) (A : (w : Fin cfg0.W) → Buf (Elt F) ((cfg0.win w).arr.view.loc (c.tc : Thread nD τ)))
    (hA : ∀ w, A w = V m c (Pipeline.arrRef spec0 w)) (w : Fin cfg0.W) (q : PosShare TreeShare) :
    ((cfg0.win w).arr.view.loc (c.tc : Thread nD τ) ↦[(cfg0.win w).arr.view.set]{q} A w : sProp 𝕄)
      = ((c.tc : Thread nD τ).loc (Pipeline.arrRef spec0 w) ↦{q} V m c (Pipeline.arrRef spec0 w)) := by
  rw [hA w, (arr_whole0 w).set_eq_univ]

/-- The distinct buffers behind the windows' arrays, one by one: seven for the eight windows, the adjacency matrix's
    counted once. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_arg0) ↦{fullShare} Vc main_arg0) ∗ (((c.tc : Thread nD τ).loc main_arg2) ↦{fullShare} Vc main_arg2) ∗ (((c.tc : Thread nD τ).loc main_v0) ↦{fullShare} Vc main_v0) ∗ (((c.tc : Thread nD τ).loc main_arg4) ↦{fullShare} Vc main_arg4) ∗ (((c.tc : Thread nD τ).loc main_v1) ↦{fullShare} Vc main_v1) ∗ (((c.tc : Thread nD τ).loc main_arg1) ↦{fullShare} Vc main_arg1) ∗ (((c.tc : Thread nD τ).loc main_v2) ↦{fullShare} Vc main_v2)) := by
  unfold Pipeline.arrBufs
  exact bigSep_eq_bigSepL_of_eq [main_arg0, main_arg2, main_v0, main_arg4, main_v1, main_arg1, main_v2] (by decide) (by decide) _

/-- The two halves of the full share make it. -/
local instance : IsOp fullShare fullShare.left fullShare.right := IsOp.posShare_halves fullShare

/-- The seven distinct buffers behind the eight windows' arrays, each whole at the full share at the region-entry
    contents, dealt to the windows: the adjacency matrix's buffer split into its two half shares, one to each of the two
    windows that read it, every other buffer handed whole to its one window. -/
theorem deal (c : Dev nD) (A : (w : Fin cfg0.W) → Buf (Elt F) ((cfg0.win w).arr.view.loc (c.tc : Thread nD τ)))
    (hA : ∀ w, A w = V m c (Pipeline.arrRef spec0 w)) :
    (Pipeline.arrBufs spec0 c (V m c) : sProp 𝕄) ⊢ bigSep Finset.univ fun w : Fin cfg0.W =>
      (cfg0.win w).arr.view.loc (c.tc : Thread nD τ) ↦[(cfg0.win w).arr.view.set]{shareOf w} A w := by
  have hR : (bigSep Finset.univ fun w : Fin cfg0.W =>
        (cfg0.win w).arr.view.loc (c.tc : Thread nD τ) ↦[(cfg0.win w).arr.view.set]{shareOf w} A w : sProp 𝕄)
      = bigSep Finset.univ fun w : Fin cfg0.W =>
        ((c.tc : Thread nD τ).loc (Pipeline.arrRef spec0 w) ↦{shareOf w} V m c (Pipeline.arrRef spec0 w)) :=
    bigSep_congr fun w _ => whole_at m c A hA w (shareOf w)
  rw [hR, arrBufs0_eq, bigSep_W0]
  show _ ⊢ iprop((((c.tc : Thread nD τ).loc main_arg0) ↦{fullShare} V m c main_arg0) ∗ (((c.tc : Thread nD τ).loc main_arg2) ↦{fullShare} V m c main_arg2) ∗ (((c.tc : Thread nD τ).loc main_v0) ↦{fullShare} V m c main_v0) ∗ (((c.tc : Thread nD τ).loc main_arg4) ↦{fullShare} V m c main_arg4) ∗ (((c.tc : Thread nD τ).loc main_v1) ↦{fullShare} V m c main_v1) ∗ (((c.tc : Thread nD τ).loc main_arg1) ↦{fullShare.left} V m c main_arg1) ∗ (((c.tc : Thread nD τ).loc main_arg1) ↦{fullShare.right} V m c main_arg1) ∗ (((c.tc : Thread nD τ).loc main_v2) ↦{fullShare} V m c main_v2))
  iintro ⟨H0, H2, Hv0, H4, Hv1, H1, Hv2⟩
  icases H1 with ⟨H1l, H1r⟩
  isplitl [H0]; · iexact H0
  isplitl [H2]; · iexact H2
  isplitl [Hv0]; · iexact Hv0
  isplitl [H4]; · iexact H4
  isplitl [Hv1]; · iexact Hv1
  isplitl [H1l]; · iexact H1l
  isplitl [H1r]; · iexact H1r
  iexact Hv2

/-- Proof data that name `shareOf` as the inputs' shares hold every window's array at `shareOf`: the output window
    (window 7) its array whole, as `shareOf` says too. -/
theorem share_of_q {c : Dev nD} (dat : Pipeline.Dat τ (Elt F) Unit ℕ (UR sig nD τ) ℕ cfg0 c) (hq : dat.q = shareOf) :
    ∀ w, dat.share w = shareOf w := by
  intro w
  unfold Pipeline.Dat.share
  rw [hq]
  match w with
  | 0 => rfl
  | 1 => rfl
  | 2 => rfl
  | 3 => rfl
  | 4 => rfl
  | 5 => rfl
  | 6 => rfl
  | 7 => rfl
  | ⟨_ + 8, h⟩ => exact absurd h (Nat.not_lt.2 (Nat.le_add_left _ _))

/-- The deal as the frame run asks it: for proof data holding the windows' arrays at `shareOf` (`hq`) whose arrays at
    entry are the region-entry contents (`hA`), the buffers behind the arrays make the data's arrays before the first
    point (no write-back has happened: `Dat.arrAt w 0` is `dat.A w`). -/
theorem deal_dat (c : Dev nD) (dat : Pipeline.Dat τ (Elt F) Unit ℕ (UR sig nD τ) ℕ cfg0 c)
    (hq : ∀ w, dat.share w = shareOf w) (hA : ∀ w, dat.A w = V m c (Pipeline.arrRef spec0 w)) :
    (Pipeline.arrBufs spec0 c (V m c) : sProp 𝕄) ⊢ dat.arrays (dat.arrAt · 0) := by
  unfold Pipeline.Dat.arrays
  refine (deal m c dat.A hA).trans (Entails.of_eq (bigSep_congr fun w _ => ?_))
  rw [hq w]
  rfl

end Cert.KernelIdeal.Frame

end
-- ==== Proof.FrameMain.lean ====
/-
  The kernel's frame, for any float instance: every weakly fair execution of the program terminates, nothing faults,
  the six argument arrays end as they were launched, and the output array ends at what the pipeline's proof data
  compute for it. The adjacency matrix is read through two windows; its share is dealt a half to each at the
  region's entry. The region's invariant is the scratch buffers' (the support matrix and the hidden layer).
-/
import proofs.«145686_g28389733826938_cont_9to1_253_7_alg».proof.Proof.FrameBody
import proofs.«145686_g28389733826938_cont_9to1_253_7_alg».proof.Proof.FrameLaunch
import proofs.«145686_g28389733826938_cont_9to1_253_7_alg».proof.Proof.LibSharedLaunch

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates with each window's array at what the
    proof data compute for it and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := fun c => deal_dat m c (dats m 0 c) (share_of_q _ (q_eq m c)) (A_eq m c))
    (hin := hin m) (hout := hout m)

/-- The frame: the program runs to the end and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same with the output array named: it ends at the proof data's final contents of the output window's array. -/
theorem frame_out : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_out_of m ρ (dats m) (A_eq m) (run_main m ρ)

end Cert.KernelIdeal.Frame

end
-- ==== Proof.RefOps.lean ====
/-
  The reference program as one straight line of host operations, and what its run leaves.

  The reference computes two graph-convolution layers. Each layer is two matrix products, a bias vector regarded as
  one row and repeated down the rows, an entrywise sum, and a leaky rectifier that the program keeps as a separate
  function: compare with a spread zero, multiply by the spread slope, select. Substituting each function's body at
  its call gives twenty-six operations in a row, each writing a buffer of its own. Run from any memory, every buffer
  ends at the fold of the operations' results over the launch contents; read at the last buffer that fold is the
  nested term `composed` of the six argument arrays, and at an argument buffer it is what the buffer held.
-/
import proofs.«145686_g28389733826938_cont_9to1_253_7_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
open Idealize.ShloMosaic.StableHlo

variable {F : FTy → Type} [FloatOps F]

/-- The operations of the whole program in order, each rectifier's seven written out where it is called: the spread
    zero, the comparison, the slope passed through, its spread, the product, and the selection. -/
abbrev ops : List (HloOp τ sig (Elt F)) :=
  [ binary main_arg0 main_arg2 main_v0 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    binary main_arg1 main_v0 main_v1 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S8192x32 ![0, 1] bcast_S1x32_S8192x32_0_1 : (⟨S1x32, .f32⟩ : BufTy).Contents (Elt F) → (⟨S8192x32, .f32⟩ : BufTy).Contents (Elt F)),
    binary main_v1 main_v3 main_v4 (addf : (⟨S8192x32, .f32⟩ : BufTy).Contents (Elt F) → (⟨S8192x32, .f32⟩ : BufTy).Contents (Elt F) → (⟨S8192x32, .f32⟩ : BufTy).Contents (Elt F)),
    nullary main_cst (constant S_ .f32 0x3C23D70A#32),
    TRef.nullary main_call0.cst (constant S_ .f32 0x00000000#32),
    TRef.unary main_call0.cst main_call0.v0 (broadcastInDim S8192x32 ![] bcast_S_S8192x32),
    TRef.binary (.of main_v4) main_call0.v0 main_call0.v1 (cmpf .oge),
    TRef.unary (.of main_cst) main_call0.v2 id,
    TRef.unary main_call0.v2 main_call0.v3 (broadcastInDim S8192x32 ![] bcast_S_S8192x32),
    TRef.binary main_call0.v3 (.of main_v4) main_call0.v4 mulf,
    TRef.ternary main_call0.v1 (.of main_v4) main_call0.v4 main_call0.call0.v0 select,
    binary main_v5 main_arg4 main_v6 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    binary main_arg1 main_v6 main_v7 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S8192x32 ![0, 1] bcast_S1x32_S8192x32_0_1 : (⟨S1x32, .f32⟩ : BufTy).Contents (Elt F) → (⟨S8192x32, .f32⟩ : BufTy).Contents (Elt F)),
    binary main_v7 main_v9 main_v10 (addf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x3C23D70A#32),
    TRef.nullary main_call1.cst (constant S_ .f32 0x00000000#32),
    TRef.unary main_call1.cst main_call1.v0 (broadcastInDim S8192x32 ![] bcast_S_S8192x32),
    TRef.binary (.of main_v10) main_call1.v0 main_call1.v1 (cmpf .oge),
    TRef.unary (.of main_cst_0) main_call1.v2 id,
    TRef.unary main_call1.v2 main_call1.v3 (broadcastInDim S8192x32 ![] bcast_S_S8192x32),
    TRef.binary main_call1.v3 (.of main_v10) main_call1.v4 mulf,
    TRef.ternary main_call1.v1 (.of main_v10) main_call1.v4 main_call1.call0.v0 select ]

-- twenty-six binds re-associated once the two functions' bodies stand at their calls
set_option maxRecDepth 1024 in
/-- The program is that straight line: with each function's body in place of its call and sequencing re-associated,
    both sides are one chain of the same steps. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- From any memory with zero counters every weakly fair execution of the program terminates, and every buffer of
    every device ends at the fold of the operations' results over what the device held at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves at the result and at the arguments -/

/-- The rectifier as the program spells it, for an array `z` and a slope held as a scalar array: zero and the slope
    spread to the array's shape, the comparison, the product, the selection. -/
def rect (z : FVec F S8192x32 .f32) (s : FVec F S_ .f32) : FVec F S8192x32 .f32 :=
  select (cmpf .oge z (broadcastInDim S8192x32 ![] bcast_S_S8192x32 (constant S_ .f32 0x00000000#32))) z
    (mulf (broadcastInDim S8192x32 ![] bcast_S_S8192x32 (id s)) z)

/-- A bias vector regarded as one row, the row repeated down all the rows. -/
def biasRows (b : FVec F S32 .f32) : FVec F S8192x32 .f32 :=
  broadcastInDim S8192x32 ![0, 1] bcast_S1x32_S8192x32_0_1 (broadcastInDim S1x32 ![1] bcast_S32_S1x32_1 b)

/-- One layer as the program spells it: the adjacency matrix times (features times weights), plus the repeated bias
    row, rectified with the slope constant. -/
def layerOps {K : ℕ} (d : DotDims ⟨2, ![8192, K]⟩ ⟨2, ![K, 32]⟩ S8192x32) (adj : FVec F S8192x8192 .f32)
    (x : FVec F ⟨2, ![8192, K]⟩ .f32) (w : FVec F ⟨2, ![K, 32]⟩ .f32) (b : FVec F S32 .f32) : FVec F S8192x32 .f32 :=
  rect (addf (Host.dotGeneral dot_S8192x8192_S8192x32_S8192x32_1_0_0_1_n_n none adj (Host.dotGeneral d none x w)) (biasRows b))
    (constant S_ .f32 0x3C23D70A#32)

/-- The whole program's result as one term of the six argument arrays: two layers over one adjacency matrix. -/
def composed (x : FVec F S8192x128 .f32) (adj : FVec F S8192x8192 .f32) (w1 : FVec F S128x32 .f32) (b1 : FVec F S32 .f32)
    (w2 : FVec F S32x32 .f32) (b2 : FVec F S32 .f32) : FVec F S8192x32 .f32 :=
  layerOps dot_S8192x32_S32x32_S8192x32_1_0_0_1_n_n adj
    (layerOps dot_S8192x128_S128x32_S8192x32_1_0_0_1_n_n adj x w1 b1) w2 b2

/-- At the result buffer the fold is `composed` of the arguments' contents: each operation's result read where the
    next one takes it, the typed references of the two functions' buffers carrying contents along equations of a
    type with itself. The operations themselves stay closed: for an arbitrary float instance they are fields of it. -/
theorem out_eq (V : Valuation τ sig (Elt F)) :
    after ops V (main_v11 : DevRef τ sig)
      = composed (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

/-- No operation writes an argument buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl

end Cert.ReferenceIdeal.RefValue

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«145686_g28389733826938_cont_9to1_253_7_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«145686_g28389733826938_cont_9to1_253_7_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.Spec.lean ====
/-
  The two-layer graph convolution as one function of its six arguments, on the extended reals.

  One layer takes node features `x` (one row per node), transforms them by a weight matrix, sums the transformed
  rows of each node's neighbours with the dense adjacency matrix as weights, adds a bias to every row, and applies
  the leaky rectifier entry by entry:  layer adj x w b = lrelu (adj · (x · w) + b).
  The network is two such layers over the same adjacency matrix. The products are plain sums over the contracted
  index; nothing here needs the entries to be finite.
-/
import proofs.«145686_g28389733826938_cont_9to1_253_7_alg».proof.Proof.LibMatProduct
import proofs.«145686_g28389733826938_cont_9to1_253_7_alg».proof.Proof.LibRowBias

noncomputable section

namespace Cert.Gcn

open Idealize.ShloMosaic Idealize.ShloMosaic.ValueIdx
open Cert.MatProduct (prod rowOf colOf)
open Cert.RowBias (addRow)

/-- The leaky rectifier on one extended real: the value itself where it is at least zero, otherwise the slope
    times it. Zero and the slope are the f32 words `0x00000000` and `0x3C23D70A` read exactly. -/
def lrelu1 (v : Ideal .f32) : Ideal .f32 :=
  Scalar.select (FloatOps.cmpf .oge v (Scalar.ofBits (F := Ideal) .f32 0x00000000#32)) v
    (Scalar.ofBits (F := Ideal) .f32 0x3C23D70A#32 * v)

/-- The leaky rectifier on an array of any shape, spelt with the vector operations: compare with a splat of zero,
    multiply by a splat of the slope, select. -/
def lrelu {S : Shape} (z : FVec Ideal S .f32) : FVec Ideal S .f32 :=
  select (cmpf .oge z (broadcast S (Scalar.ofBits (F := Ideal) .f32 0x00000000#32))) z
    (mulf (broadcast S (Scalar.ofBits (F := Ideal) .f32 0x3C23D70A#32)) z)

/-- The rectifier of an array is the scalar rectifier of each entry. -/
theorem lrelu_apply {S : Shape} (z : FVec Ideal S .f32) (i : S.Idx) : lrelu z i = lrelu1 (z i) := rfl

/-- The rectifier of an array, as the entrywise map. -/
theorem lrelu_eq_map {S : Shape} (z : FVec Ideal S .f32) : lrelu z = fun i => lrelu1 (z i) := rfl

/-- A length-`N` vector regarded as one row: entry `(0, c)` is the vector's entry `c`. -/
def asRow {N : ℕ} (b : (⟨1, ![N]⟩ : Shape).Idx → EReal) : (⟨2, ![1, N]⟩ : Shape).Idx → EReal :=
  fun y => b (ix1 (colOf y))

theorem asRow_apply {N : ℕ} (b : (⟨1, ![N]⟩ : Shape).Idx → EReal) (u : Fin 1) (c : Fin N) :
    asRow b (ix2 u c) = b (ix1 c) := rfl

/-- One graph-convolution layer: `lrelu (adj · (x · w) + b)`, the bias one row added to every row. -/
def layer {R K N : ℕ} (adj : (⟨2, ![R, R]⟩ : Shape).Idx → EReal) (x : (⟨2, ![R, K]⟩ : Shape).Idx → EReal)
    (w : (⟨2, ![K, N]⟩ : Shape).Idx → EReal) (b : (⟨2, ![1, N]⟩ : Shape).Idx → EReal) :
    (⟨2, ![R, N]⟩ : Shape).Idx → EReal :=
  lrelu (S := ⟨2, ![R, N]⟩) (addRow (prod adj (prod x w)) b)

/-- The network: two layers over one adjacency matrix, the arguments in the programs' order
    (features, adjacency, first weights, first bias, second weights, second bias). -/
def gcn (x : (⟨2, ![8192, 128]⟩ : Shape).Idx → EReal) (adj : (⟨2, ![8192, 8192]⟩ : Shape).Idx → EReal)
    (w1 : (⟨2, ![128, 32]⟩ : Shape).Idx → EReal) (b1 : (⟨1, ![32]⟩ : Shape).Idx → EReal)
    (w2 : (⟨2, ![32, 32]⟩ : Shape).Idx → EReal) (b2 : (⟨1, ![32]⟩ : Shape).Idx → EReal) :
    (⟨2, ![8192, 32]⟩ : Shape).Idx → EReal :=
  layer adj (layer adj x w1 (asRow b1)) w2 (asRow b2)

end Cert.Gcn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.RefRun.lean ====
/-
  The reference program computes the two-layer graph convolution.

  The program's result is the nested term `composed` of its six argument arrays (the fold of its operations read
  at the last buffer). On the extended reals each piece of that term is the specification's: the host's product of
  an `[M, K]` by a `[K, N]` array is the sum over the contracted index; a bias vector regarded as one row and
  repeated down the rows reads, at row `r` and column `q`, the vector's entry `q`, so adding it is adding the row to
  every row; and a scalar constant spread to an array's shape is the splat of that scalar, so the comparison with
  zero, the product with the slope and the selection are the leaky rectifier entry by entry. Two layers of these give
  `gcn`, and the run of the program ends with `gcn` of the launch contents at the result buffer and every argument
  buffer as it was.
-/
import proofs.«145686_g28389733826938_cont_9to1_253_7_alg».proof.Proof.RefOps
import proofs.«145686_g28389733826938_cont_9to1_253_7_alg».proof.Proof.Spec
import proofs.«145686_g28389733826938_cont_9to1_253_7_alg».proof.Proof.LibHostRow

noncomputable section

namespace Cert.ReferenceIdeal.RefValue

open Cert.ReferenceIdeal Cert.ReferenceIdeal.Facts₀ Idealize.ShloMosaic Idealize.ShloMosaic.ValueIdx Idealize.ShloMosaic.TcCoe
open Idealize.SL.Sem Idealize.ShloMosaic.StableHlo
open Cert.MatProduct (prod rowOf colOf eq_row_col dotGeneral_eq_prod)
open Cert.RowBias (addRow)
open Cert.Gcn (lrelu asRow layer gcn)

/-! ## The pieces, on the extended reals -/

/-- The host's product with the dimension numbers of a plain `[M, K]` by `[K, N]` product is the sum over the
    contracted index at every entry. -/
theorem hostDot_eq_prod {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) :
    Host.dotGeneral (F := Ideal) d none l r = prod l r := by
  subst hd
  exact dotGeneral_eq_prod none .single l r

/-- A scalar constant spread to the array's shape is the splat of the scalar the word denotes. -/
theorem spread_const (w : BitVec 32) :
    broadcastInDim S8192x32 ![] bcast_S_S8192x32 (constant (F := Ideal) S_ .f32 w)
      = broadcast S8192x32 (Scalar.ofBits (F := Ideal) .f32 w) := by
  funext j
  rw [Cert.LibHostRow.scalar_apply]
  rfl

/-- The program's rectifier with the slope constant is the specification's leaky rectifier. -/
theorem rect_eq (z : FVec Ideal S8192x32 .f32) :
    rect (F := Ideal) z (constant (F := Ideal) S_ .f32 0x3C23D70A#32) = lrelu z := by
  unfold rect
  rw [id_eq, spread_const, spread_const]
  rfl

/-- The repeated bias row reads, at row `r` and column `q`, the vector's entry `q`. -/
theorem biasRows_apply (b : FVec Ideal S32 .f32) (r : Fin 8192) (q : Fin 32) :
    biasRows (F := Ideal) b (ix2 r q) = b (ix1 q) := by
  unfold biasRows
  rw [Cert.LibHostRow.rows_apply, Cert.LibHostRow.row_apply]

/-- Adding the repeated bias row is adding the vector, regarded as one row, to every row. -/
theorem bias_eq (z : FVec Ideal S8192x32 .f32) (b : FVec Ideal S32 .f32) :
    addf z (biasRows (F := Ideal) b) = addRow z (asRow b) := by
  funext y
  rw [eq_row_col y, addf_apply, biasRows_apply]
  rfl

/-! ## The composed term is the network -/

/-- One layer of the program is one layer of the specification. -/
theorem layerOps_eq {K : ℕ} (d : DotDims ⟨2, ![8192, K]⟩ ⟨2, ![K, 32]⟩ S8192x32) (hd : d = DotDims.plain 8192 K 32)
    (adj : FVec Ideal S8192x8192 .f32) (x : FVec Ideal ⟨2, ![8192, K]⟩ .f32) (w : FVec Ideal ⟨2, ![K, 32]⟩ .f32)
    (b : FVec Ideal S32 .f32) :
    layerOps (F := Ideal) d adj x w b = layer adj x w (asRow b) := by
  unfold layerOps layer
  rw [hostDot_eq_prod d hd, hostDot_eq_prod dot_S8192x8192_S8192x32_S8192x32_1_0_0_1_n_n rfl, bias_eq, rect_eq]

/-- The program's result term is the two-layer network of its six arguments. -/
theorem composed_eq_gcn (x : FVec Ideal S8192x128 .f32) (adj : FVec Ideal S8192x8192 .f32) (w1 : FVec Ideal S128x32 .f32)
    (b1 : FVec Ideal S32 .f32) (w2 : FVec Ideal S32x32 .f32) (b2 : FVec Ideal S32 .f32) :
    composed (F := Ideal) x adj w1 b1 w2 b2 = gcn x adj w1 b1 w2 b2 := by
  unfold composed gcn
  rw [layerOps_eq dot_S8192x128_S128x32_S8192x32_1_0_0_1_n_n rfl, layerOps_eq dot_S8192x32_S32x32_S8192x32_1_0_0_1_n_n rfl]

/-! ## The run -/

/-- From any memory with zero counters every weakly fair execution of the reference terminates with the result
    buffer at the network of the six arguments' launch contents, and every argument buffer as it was. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v11)
            = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run (Cert.ReferenceIdeal.defs (F := Ideal)) _ _).mono
    (fun _ h c => ⟨(h c main_v11).trans ((out_eq (launchContents m c)).trans (composed_eq_gcn _ _ _ _ _ _)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_fold (F := Ideal) m ρ)

/-- The same run with the result forgotten: the program terminates and leaves its arguments as they were. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run (Cert.ReferenceIdeal.defs (F := Ideal)) _ _).mono (fun _ h c => (h c).2) (run m ρ)

end Cert.ReferenceIdeal.RefValue

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«145686_g28389733826938_cont_9to1_253_7_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.PayloadValue.lean ====
/-
  The arithmetic of the kernel's body on the extended reals, payload by payload.

  The body computes, at every grid point, two blocks of 256 rows of one graph-convolution layer. Its scratch holds the
  transformed features x · W (a matrix-unit product into a zero accumulator; narrowing the operands to a shorter float
  format changes nothing on the extended reals). A block of the layer is then the leaky rectifier of
  A · s + b, where A is a block of 256 rows of the adjacency matrix, s the scratch and b the layer's bias row spread
  down the 256 rows; the bias row is the first layer's when the grid's first coordinate is 0 and the second layer's
  otherwise. The last theorem is the fact that makes the blocks fit together: a block of consecutive rows of the
  adjacency matrix gives the same block of rows of the whole layer.
-/
import proofs.«145686_g28389733826938_cont_9to1_253_7_alg».proof.Proof.Spec
import proofs.«145686_g28389733826938_cont_9to1_253_7_alg».proof.Proof.LibRowBlocks
import proofs.«145686_g28389733826938_cont_9to1_253_7_alg».proof.Proof.Gen.KernelIdeal.Skeleton

noncomputable section

namespace Cert.KernelIdeal.PayValue

open Idealize.ShloMosaic Idealize.ShloMosaic.ValueIdx
open Cert.KernelIdeal Cert.KernelIdeal.Gen Cert.Gcn
open Cert.MatProduct (prod rowOf colOf)
open Cert.RowBias (addRow)

/-! ## The three contraction records are the plain product's -/

theorem dot_x_w1 : dot_S8192x128_S128x32_S8192x32_1_0_0_1_n_n = DotDims.plain 8192 128 32 := rfl
theorem dot_h_w2 : dot_S8192x32_S32x32_S8192x32_1_0_0_1_n_n = DotDims.plain 8192 32 32 := rfl
theorem dot_a_s : dot_S256x8192_S8192x32_S256x32_1_0_0_1_n_n = DotDims.plain 256 8192 32 := rfl

/-! ## One block of the layer before the rectifier -/

/-- The matrix unit's product of a block of adjacency rows with the scratch, plus the bias row spread down the rows,
    is the product with the bias row added to every row. -/
theorem preact_eq (a : FVec Ideal S256x8192 .f32) (s : FVec Ideal S8192x32 .bf16) (b : FVec Ideal S1x32 .f32) :
    addf (FloatOps.matmul dot_S256x8192_S8192x32_S256x32_1_0_0_1_n_n none (truncf .bf16 a bitsLt_bf16_f32) s
        (constant (F := Ideal) S256x32 .f32 0x00000000#32)) (broadcastTo S256x32 b broadcasts_S1x32_S256x32)
      = addRow (prod a s) b := by
  funext y
  refine (addf_apply _ _ y).trans ?_
  show _ + _ = prod a s y + b (ix2 0 (colOf y))
  exact congrArg₂ (· + ·) (congrFun (Cert.MatProduct.matmul_zero_eq_prod (M := 256) (K := 8192) (N := 32) none a s) y)
    (Cert.RowBias.spreadRow_apply (R := 256) (N := 32) b broadcasts_S1x32_S256x32 y)

/-! ## The payloads -/

/-- The first block of the layer: the rectifier of A · s + b. -/
theorem pay7_eq (i : grid0.Coords) (r1 r2 : Vec Ideal S1x32 .f32) (s : Vec Ideal S8192x32 .bf16)
    (a : Vec Ideal S256x8192 .f32) :
    k0_pay7 (F := Ideal) i r1 r2 s a
      = lrelu (S := S256x32) (addRow (prod a s) (k0_pay6 (F := Ideal) i r1 r2)) :=
  congrArg (lrelu (S := S256x32)) (preact_eq a s (k0_pay6 (F := Ideal) i r1 r2))

/-- The second block before the rectifier: A · s + b. -/
theorem pay8_eq (i : grid0.Coords) (r1 r2 : Vec Ideal S1x32 .f32) (s : Vec Ideal S8192x32 .bf16)
    (a : Vec Ideal S256x8192 .f32) :
    k0_pay8 (F := Ideal) i r1 r2 s a = addRow (prod a s) (k0_pay6 (F := Ideal) i r1 r2) :=
  preact_eq a s (k0_pay6 (F := Ideal) i r1 r2)

/-- The second block: the comparison with zero and the selection, over the second block's sum, are the rectifier. -/
theorem pay189_eq (i : grid0.Coords) (r1 r2 : Vec Ideal S1x32 .f32) (s : Vec Ideal S8192x32 .bf16)
    (a : Vec Ideal S256x8192 .f32) :
    k0_pay1 (F := Ideal) (k0_pay8 (F := Ideal) i r1 r2 s a) (k0_pay9 (F := Ideal) i r1 r2 s a)
      = lrelu (S := S256x32) (addRow (prod a s) (k0_pay6 (F := Ideal) i r1 r2)) :=
  congrArg (lrelu (S := S256x32)) (pay8_eq i r1 r2 s a)

/-! ## The scratch: the transformed features -/

/-- The first layer's scratch is x · W1. -/
theorem pay4_eq (x : Vec Ideal S8192x128 .f32) (w : Vec Ideal S128x32 .f32) :
    k0_pay4 (F := Ideal) x w = prod x w :=
  (shapeCast_self _ shapeCasts_S8192x32_S8192x32).trans
    (Cert.MatProduct.matmul_zero_eq_prod (M := 8192) (K := 128) (N := 32) (φ₁ := .bf16) (φ₂ := .bf16) none x w)

/-- The second layer's scratch is h · W2. -/
theorem pay5_eq (h : Vec Ideal S8192x32 .f32) (w : Vec Ideal S32x32 .f32) :
    k0_pay5 (F := Ideal) h w = prod h w :=
  (shapeCast_self _ shapeCasts_S8192x32_S8192x32).trans
    (Cert.MatProduct.matmul_zero_eq_prod (M := 8192) (K := 32) (N := 32) (φ₁ := .bf16) (φ₂ := .bf16) none h w)

/-! ## The bias row -/

/-- The word of a grid coordinate below 2 equals the zero word exactly when the coordinate is 0. -/
theorem pick_eq {α : Type} (n : ℕ) (hn : n < 2) (u v : α) :
    Scalar.select (Scalar.cmpi .eq (BitVec.ofNat 32 n) 0#32) u v = if n = 0 then u else v := by
  interval_cases n
  · rfl
  · rfl

/-- The bias row is the first layer's at the grid's first coordinate 0 and the second layer's otherwise. -/
theorem pay6_eq (i : grid0.Coords) (r1 r2 : Vec Ideal S1x32 .f32) :
    k0_pay6 (F := Ideal) i r1 r2 = if (i 0).val = 0 then r1 else r2 := by
  have e := pick_eq (i 0).val (i 0).isLt r1 r2
  rw [← e]
  unfold k0_pay6
  rw [shapeCast_self, shapeCast_self]

/-! ## The same-shape casts before the stores -/

theorem pay2_eq (v : FVec Ideal S256x32 .f32) : k0_pay2 (F := Ideal) v = v :=
  shapeCast_self v shapeCasts_S256x32_S256x32

theorem pay3_eq (v31 : FVec Ideal S256x32 .f32) (v33 : IVec S256x32 1) :
    k0_pay3 (F := Ideal) v31 v33 = k0_pay1 (F := Ideal) v31 v33 :=
  shapeCast_self _ shapeCasts_S256x32_S256x32

/-! ## Blocks of rows of a layer -/

/-- A block of consecutive rows of the adjacency matrix gives the same block of rows of the layer: the product reads
    only that row of the left factor, the bias depends on the column only, and the rectifier acts entry by entry. -/
theorem layer_rows {R K N M : ℕ} (o : ℕ) (adj : (⟨2, ![R, K]⟩ : Shape).Idx → EReal)
    (a : (⟨2, ![M, K]⟩ : Shape).Idx → EReal) (s : (⟨2, ![K, N]⟩ : Shape).Idx → EReal)
    (b : (⟨2, ![1, N]⟩ : Shape).Idx → EReal) (h : Cert.Bridge.RowsAt o a adj) :
    Cert.Bridge.RowsAt o (lrelu (S := ⟨2, ![M, N]⟩) (addRow (prod a s) b))
      (lrelu (S := ⟨2, ![R, N]⟩) (addRow (prod adj s) b)) := by
  have hp : Cert.Bridge.RowsAt o (prod a s) (prod adj s) := Cert.Bridge.RowsAt.prod h s
  have hb : Cert.Bridge.RowsAt o (fun y : (⟨2, ![M, N]⟩ : Shape).Idx => b (ix2 0 (colOf y)))
      (fun y : (⟨2, ![R, N]⟩ : Shape).Idx => b (ix2 0 (colOf y))) :=
    Cert.Bridge.RowsAt.ofCols (fun j => b (ix2 0 j)) (fun _ _ => rfl) (fun _ _ => rfl)
  have hadd : Cert.Bridge.RowsAt o (addRow (prod a s) b) (addRow (prod adj s) b) :=
    Cert.Bridge.RowsAt.map₂ (fun u v : EReal => u + v) hp hb
  exact Cert.Bridge.RowsAt.map lrelu1 hadd

end Cert.KernelIdeal.PayValue

end
-- ==== Proof.KernelValueA.lean ====
/-
  The kernel's value on the extended reals, first part: what the region finds in each array.

  No host operation before the region writes an argument array, so the region finds each as launched; the two bias
  vectors are each regarded as one row by a reshape, so the row arrays hold the vectors' entries: entry (0, j) of the
  row is entry j of the vector.
-/
import proofs.«145686_g28389733826938_cont_9to1_253_7_alg».proof.Proof.FrameData
import proofs.«145686_g28389733826938_cont_9to1_253_7_alg».proof.Proof.FrameLaunch
import proofs.«145686_g28389733826938_cont_9to1_253_7_alg».proof.Proof.PayloadValue
import proofs.«145686_g28389733826938_cont_9to1_253_7_alg».proof.Proof.Spec
import proofs.«145686_g28389733826938_cont_9to1_253_7_alg».proof.Proof.LibRowBlocks
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frame Cert.Gcn
open Cert.MatProduct (prod rowOf colOf)
open Cert.RowBias (addRow)
open Cert.Bridge (RowsAt)

variable (m : (ℓ : Loc nD τ sig) → Buf (Elt Ideal) ℓ) (c : Dev nD)

/-- A vector regarded as one row by a reshape is the row whose entry (0, j) is the vector's entry j. -/
theorem reshape_row (b : S32.Idx → EReal) : shapeCast S1x32 b shapeCasts_S32_S1x32 = asRow b := by
  funext y
  have hy : y = ix2 (rowOf y) (colOf y) := eq_ix2 y
  have h0 : rowOf y = (0 : Fin 1) := Subsingleton.elim _ _
  rw [hy, h0]
  exact Cert.RowBias.vecRow_apply b shapeCasts_S32_S1x32 (colOf y)

/-- The first bias row is the first bias vector regarded as one row. -/
theorem V_v0 : (V m c main_v0 : S1x32.Idx → EReal) = asRow (m ((c : Thread nD τ).loc main_arg3) : S32.Idx → EReal) := by
  refine Eq.trans ?_ (reshape_row _)
  dsimp only [V, hostOps0]
  after_results
  rfl

/-- The second bias row is the second bias vector regarded as one row. -/
theorem V_v1 : (V m c main_v1 : S1x32.Idx → EReal) = asRow (m ((c : Thread nD τ).loc main_arg5) : S32.Idx → EReal) := by
  refine Eq.trans ?_ (reshape_row _)
  dsimp only [V, hostOps0]
  after_results
  rfl

end Cert.KernelIdeal.KValue

end
-- ==== Proof.KernelValueB.lean ====
/-
  The kernel's value on the extended reals, second part: each window's block at a point, read off its array.

  The features, both weight matrices and both bias rows are each one block, the whole array, at every point. The
  adjacency matrix is read through two windows of 256 rows: at point t (row block t mod 16 of its layer) the first
  holds rows 512 · (t mod 16) … + 255 and the second the next 256 rows. The output window's block on the second layer
  is row block t − 16, and it is written back at every point of that layer. The index maps are decided once over the
  32 grid points.
-/
import proofs.«145686_g28389733826938_cont_9to1_253_7_alg».proof.Proof.KernelValueA

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frame Cert.Gcn
open Cert.MatProduct (prod rowOf colOf)
open Cert.RowBias (addRow)
open Cert.Bridge (RowsAt)

variable (m : (ℓ : Loc nD τ sig) → Buf (Elt Ideal) ℓ) (c : Dev nD)

/-- The five one-block windows sit at block (0, 0) at every point. -/
theorem idx_whole : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The adjacency matrix's two windows sit at row blocks 2 · (t mod 16) and 2 · (t mod 16) + 1 of 256 rows. -/
theorem idx_adj : ∀ t : Fin cfg0.N,
    (win0_5.index t (0 : Fin 2) = 2 * (t.val % 16) ∧ win0_5.index t (1 : Fin 2) = 0)
    ∧ (win0_6.index t (0 : Fin 2) = 2 * (t.val % 16) + 1 ∧ win0_6.index t (1 : Fin 2) = 0) :=
  (by decide +kernel : ∀ t : Fin grid0.N, _)

/-- On the second layer the output window sits at row block t − 16 of 512 rows. -/
theorem idx_out : ∀ t : Fin cfg0.N, 16 ≤ t.val →
    win0_7.index t (0 : Fin 2) = t.val - 16 ∧ win0_7.index t (1 : Fin 2) = 0 :=
  (by decide +kernel : ∀ t : Fin grid0.N, _)

/-- Every point of the second layer writes its output block back. -/
theorem flush_out : ∀ t : Fin cfg0.N, 16 ≤ t.val → (cfg0.win 7).flush t = true :=
  (by decide +kernel : ∀ t : Fin grid0.N, 16 ≤ t.val → win0_7.flush t = true)

/-- The grid's first coordinate, the layer, is 0 on the first sixteen points and not 0 after. -/
theorem layer_coord : ∀ t : Fin cfg0.N, (((grid0.coords t) 0).val = 0 ↔ t.val < 16) :=
  (by decide +kernel : ∀ t : Fin grid0.N, _)

/-- Window 0's block is its whole array at every point. -/
theorem iblk0_eq (t : Fin cfg0.N) : (iblk m c 0 t : S8192x128.Idx → EReal) = m ((c : Thread nD τ).loc main_arg0) := by
  refine Eq.trans ?_ (V_main_arg0 m c)
  have e := idx_whole t
  funext j
  unfold iblk
  rw [View.read_apply]
  show V m c main_arg0 _ = V m c main_arg0 j
  congr 1
  funext a
  apply Fin.ext
  match a with
  | ⟨0, _⟩ => show win0_0.index t (0 : Fin 2) * 8192 + 1 * (j 0).val = (j 0).val; rw [e.1.1]; omega
  | ⟨1, _⟩ => show win0_0.index t (1 : Fin 2) * 128 + 1 * (j 1).val = (j 1).val; rw [e.1.2]; omega

/-- Window 1's block is its whole array at every point. -/
theorem iblk1_eq (t : Fin cfg0.N) : (iblk m c 1 t : S128x32.Idx → EReal) = m ((c : Thread nD τ).loc main_arg2) := by
  refine Eq.trans ?_ (V_main_arg2 m c)
  have e := idx_whole t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e.2.1.1]; omega
  | ⟨1, _⟩ => show win0_1.index t (1 : Fin 2) * 32 + 1 * (j 1).val = (j 1).val; rw [e.2.1.2]; omega

/-- Window 2's block is its whole array at every point. -/
theorem iblk2_eq (t : Fin cfg0.N) : (iblk m c 2 t : S1x32.Idx → EReal) = asRow (m ((c : Thread nD τ).loc main_arg3) : S32.Idx → EReal) := by
  refine Eq.trans ?_ (V_v0 m c)
  have e := idx_whole t
  funext j
  unfold iblk
  rw [View.read_apply]
  show V m c main_v0 _ = V m c main_v0 j
  congr 1
  funext a
  apply Fin.ext
  match a with
  | ⟨0, _⟩ => show win0_2.index t (0 : Fin 2) * 1 + 1 * (j 0).val = (j 0).val; rw [e.2.2.1.1]; omega
  | ⟨1, _⟩ => show win0_2.index t (1 : Fin 2) * 32 + 1 * (j 1).val = (j 1).val; rw [e.2.2.1.2]; omega

/-- Window 3's block is its whole array at every point. -/
theorem iblk3_eq (t : Fin cfg0.N) : (iblk m c 3 t : S32x32.Idx → EReal) = m ((c : Thread nD τ).loc main_arg4) := by
  refine Eq.trans ?_ (V_main_arg4 m c)
  have e := idx_whole t
  funext j
  unfold iblk
  rw [View.read_apply]
  show V m c main_arg4 _ = V m c main_arg4 j
  congr 1
  funext a
  apply Fin.ext
  match a with
  | ⟨0, _⟩ => show win0_3.index t (0 : Fin 2) * 32 + 1 * (j 0).val = (j 0).val; rw [e.2.2.2.1.1]; omega
  | ⟨1, _⟩ => show win0_3.index t (1 : Fin 2) * 32 + 1 * (j 1).val = (j 1).val; rw [e.2.2.2.1.2]; omega

/-- Window 4's block is its whole array at every point. -/
theorem iblk4_eq (t : Fin cfg0.N) : (iblk m c 4 t : S1x32.Idx → EReal) = asRow (m ((c : Thread nD τ).loc main_arg5) : S32.Idx → EReal) := by
  refine Eq.trans ?_ (V_v1 m c)
  have e := idx_whole t
  funext j
  unfold iblk
  rw [View.read_apply]
  show V m c main_v1 _ = V m c main_v1 j
  congr 1
  funext a
  apply Fin.ext
  match a with
  | ⟨0, _⟩ => show win0_4.index t (0 : Fin 2) * 1 + 1 * (j 0).val = (j 0).val; rw [e.2.2.2.2.1]; omega
  | ⟨1, _⟩ => show win0_4.index t (1 : Fin 2) * 32 + 1 * (j 1).val = (j 1).val; rw [e.2.2.2.2.2]; omega

/-- Window 5's block at point t is the 256 rows of the adjacency matrix from row 512 · (t mod 16). -/
theorem iblk5_rows (t : Fin cfg0.N) :
    RowsAt (512 * (t.val % 16)) (iblk m c 5 t : S256x8192.Idx → EReal) (m ((c : Thread nD τ).loc main_arg1) : S8192x8192.Idx → EReal) := by
  intro p r j hr
  rw [← V_main_arg1 m c]
  have e := idx_adj t
  unfold iblk
  rw [View.read_apply]
  show V m c main_arg1 _ = V m c main_arg1 (ix2 r j)
  congr 1
  funext a
  apply Fin.ext
  match a with
  | ⟨0, _⟩ => show win0_5.index t (0 : Fin 2) * 256 + 1 * p.val = r.val; rw [e.1.1]; omega
  | ⟨1, _⟩ => show win0_5.index t (1 : Fin 2) * 8192 + 1 * j.val = j.val; rw [e.1.2]; omega

/-- Window 6's block at point t is the 256 rows of the adjacency matrix from row 512 · (t mod 16) + 256. -/
theorem iblk6_rows (t : Fin cfg0.N) :
    RowsAt (512 * (t.val % 16) + 256) (iblk m c 6 t : S256x8192.Idx → EReal) (m ((c : Thread nD τ).loc main_arg1) : S8192x8192.Idx → EReal) := by
  intro p r j hr
  rw [← V_main_arg1 m c]
  have e := idx_adj t
  unfold iblk
  rw [View.read_apply]
  show V m c main_arg1 _ = V m c main_arg1 (ix2 r j)
  congr 1
  funext a
  apply Fin.ext
  match a with
  | ⟨0, _⟩ => show win0_6.index t (0 : Fin 2) * 256 + 1 * p.val = r.val; rw [e.2.1]; omega
  | ⟨1, _⟩ => show win0_6.index t (1 : Fin 2) * 8192 + 1 * j.val = j.val; rw [e.2.2]; omega

end Cert.KernelIdeal.KValue

end
-- ==== Proof.KernelValueC.lean ====
/-
  The kernel's value on the extended reals, third part: what the scratch buffers and the output blocks hold, as
  functions of the six argument arrays.

  The first support matrix is x · W1. At a first-layer point t the two stored half blocks are the rectifier of
  A · (x · W1) + b1 for the two blocks A of 256 adjacency rows the point reads, so — a block of rows of the adjacency
  matrix giving the same block of rows of the layer — they are rows 512·t … 512·t + 511 of the hidden layer
  lrelu (adj · (x · W1) + b1); row by row that is the whole hidden layer. The second support matrix is then
  hidden · W2, and a second-layer point's output block is, by the same argument, rows 512·(t − 16) … of
  lrelu (adj · (hidden · W2) + b2): the network's result.
-/
import proofs.«145686_g28389733826938_cont_9to1_253_7_alg».proof.Proof.KernelValueB

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frame Cert.Gcn
open Cert.MatProduct (prod rowOf colOf)
open Cert.RowBias (addRow)
open Cert.Bridge (RowsAt)

variable (m : (ℓ : Loc nD τ sig) → Buf (Elt Ideal) ℓ) (c : Dev nD)

/-- The network's result as a function of the six argument arrays as launched. -/
def G : Buf (Elt Ideal) ((c : Thread nD τ).loc main_v2) :=
  gcn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The hidden layer as a function of the argument arrays. -/
abbrev hid : (⟨2, ![8192, 32]⟩ : Shape).Idx → EReal :=
  layer (m ((c : Thread nD τ).loc main_arg1)) (m ((c : Thread nD τ).loc main_arg0)) (m ((c : Thread nD τ).loc main_arg2)) (asRow (m ((c : Thread nD τ).loc main_arg3)))

/-- On the first layer the body's bias row is the first bias vector's. -/
theorem bias0 (t : Fin cfg0.N) (ht : t.val < 16) :
    k0_pay6 (F := Ideal) (grid0.coords t) (iblk m c 2 t) (iblk m c 4 t) = asRow (m ((c : Thread nD τ).loc main_arg3) : S32.Idx → EReal) := by
  refine (Cert.KernelIdeal.PayValue.pay6_eq (grid0.coords t) (iblk m c 2 t) (iblk m c 4 t)).trans ?_
  rw [if_pos ((layer_coord t).mpr ht)]
  exact iblk2_eq m c t

/-- On the second layer it is the second bias vector's. -/
theorem bias1 (t : Fin cfg0.N) (ht : 16 ≤ t.val) :
    k0_pay6 (F := Ideal) (grid0.coords t) (iblk m c 2 t) (iblk m c 4 t) = asRow (m ((c : Thread nD τ).loc main_arg5) : S32.Idx → EReal) := by
  refine (Cert.KernelIdeal.PayValue.pay6_eq (grid0.coords t) (iblk m c 2 t) (iblk m c 4 t)).trans ?_
  rw [if_neg (fun h => absurd ((layer_coord t).mp h) (by omega))]
  exact iblk4_eq m c t

/-- The first support matrix is features times first weights. -/
theorem S0_eq : S0 m c = prod (m ((c : Thread nD τ).loc main_arg0)) (m ((c : Thread nD τ).loc main_arg2)) :=
  (Cert.KernelIdeal.PayValue.pay4_eq (iblk m c 0 t0) (iblk m c 1 t0)).trans
    (congrArg₂ prod (iblk0_eq m c t0) (iblk1_eq m c t0))

/-- The first half block of a point, over a support matrix s and with bias row b, is 256 rows of
    lrelu (adj · s + b), from row 512 · (t mod 16). -/
theorem yA_rows (t : Fin cfg0.N) (s : Vec Ideal S8192x32 .bf16) (b : S1x32.Idx → EReal)
    (hb : k0_pay6 (F := Ideal) (grid0.coords t) (iblk m c 2 t) (iblk m c 4 t) = b) :
    RowsAt (512 * (t.val % 16)) (yA m c t s)
      (lrelu (S := ⟨2, ![8192, 32]⟩) (addRow (prod (m ((c : Thread nD τ).loc main_arg1) : S8192x8192.Idx → EReal) s) b)) := by
  have e : yA m c t s = lrelu (S := S256x32) (addRow (prod (iblk m c 5 t) s) b) :=
    (Cert.KernelIdeal.PayValue.pay7_eq (grid0.coords t) (iblk m c 2 t) (iblk m c 4 t) s (iblk m c 5 t)).trans
      (congrArg (fun b => lrelu (S := S256x32) (addRow (prod (iblk m c 5 t) s) b)) hb)
  rw [e]
  exact Cert.KernelIdeal.PayValue.layer_rows (512 * (t.val % 16)) _ (iblk m c 5 t) s b (iblk5_rows m c t)

/-- The second half block is the next 256 rows. -/
theorem zB_rows (t : Fin cfg0.N) (s : Vec Ideal S8192x32 .bf16) (b : S1x32.Idx → EReal)
    (hb : k0_pay6 (F := Ideal) (grid0.coords t) (iblk m c 2 t) (iblk m c 4 t) = b) :
    RowsAt (512 * (t.val % 16) + 256) (k0_pay1 (F := Ideal) (pB m c t s) (qB m c t s))
      (lrelu (S := ⟨2, ![8192, 32]⟩) (addRow (prod (m ((c : Thread nD τ).loc main_arg1) : S8192x8192.Idx → EReal) s) b)) := by
  have e : k0_pay1 (F := Ideal) (pB m c t s) (qB m c t s) = lrelu (S := S256x32) (addRow (prod (iblk m c 6 t) s) b) :=
    (Cert.KernelIdeal.PayValue.pay189_eq (grid0.coords t) (iblk m c 2 t) (iblk m c 4 t) s (iblk m c 6 t)).trans
      (congrArg (fun b => lrelu (S := S256x32) (addRow (prod (iblk m c 6 t) s) b)) hb)
  rw [e]
  exact Cert.KernelIdeal.PayValue.layer_rows (512 * (t.val % 16) + 256) _ (iblk m c 6 t) s b (iblk6_rows m c t)

/-- Over the first support matrix and the first bias the layer's formula is the hidden layer. -/
theorem hid_eq :
    lrelu (S := ⟨2, ![8192, 32]⟩) (addRow (prod (m ((c : Thread nD τ).loc main_arg1) : S8192x8192.Idx → EReal) (S0 m c))
      (asRow (m ((c : Thread nD τ).loc main_arg3) : S32.Idx → EReal))) = hid m c := by
  rw [S0_eq]
  rfl

/-- The hidden layer the kernel keeps, row by row, is the hidden layer. -/
theorem H_eq : H m c = hid m c := by
  funext y
  have hr : (y 0).val < 8192 := (y 0).isLt
  have hpt : (ptOf y).val = (y 0).val / 512 := rfl
  have hlt : (ptOf y).val < 16 := by omega
  rw [← hid_eq]
  refine Eq.trans ?_ (congrArg _ (Cert.MatProduct.eq_row_col y).symm)
  unfold H
  by_cases h : (y 0).val % 512 < 256
  · rw [dif_pos h]
    refine (congrFun (Cert.KernelIdeal.PayValue.pay2_eq _) _).trans ?_
    exact yA_rows m c (ptOf y) (S0 m c) _ (bias0 m c (ptOf y) hlt) ⟨(y 0).val % 512, h⟩ (rowOf y) (colOf y)
      (by show (y 0).val = 512 * ((ptOf y).val % 16) + (y 0).val % 512; omega)
  · rw [dif_neg h]
    refine (congrFun (Cert.KernelIdeal.PayValue.pay3_eq _ _) _).trans ?_
    exact zB_rows m c (ptOf y) (S0 m c) _ (bias0 m c (ptOf y) hlt)
      ⟨(y 0).val % 512 - 256, by have := Nat.mod_lt (y 0).val (show 0 < 512 by decide); omega⟩ (rowOf y) (colOf y)
      (by show (y 0).val = 512 * ((ptOf y).val % 16) + 256 + ((y 0).val % 512 - 256); omega)

/-- The second support matrix is hidden layer times second weights. -/
theorem S1_eq : S1 m c = prod (hid m c) (m ((c : Thread nD τ).loc main_arg4)) :=
  (Cert.KernelIdeal.PayValue.pay5_eq (H m c) (iblk m c 3 t16)).trans
    (congrArg₂ prod (H_eq m c) (iblk3_eq m c t16))

/-- Over the second support matrix and the second bias the layer's formula is the network's result. -/
theorem G_eq :
    lrelu (S := ⟨2, ![8192, 32]⟩) (addRow (prod (m ((c : Thread nD τ).loc main_arg1) : S8192x8192.Idx → EReal) (S1 m c))
      (asRow (m ((c : Thread nD τ).loc main_arg5) : S32.Idx → EReal))) = G m c := by
  rw [S1_eq]
  rfl

/-- A second-layer point's output block holds rows 512 · (t − 16) … of the network's result: entry y of the block
    is the result's entry in row 512 · (t − 16) + y₀ and column y₁. -/
theorem Out_apply (t : Fin cfg0.N) (ht : 16 ≤ t.val) (y : S512x32.Idx) (i : S8192x32.Idx)
    (h0 : (i 0).val = 512 * (t.val - 16) + (y 0).val) (h1 : (i 1).val = (y 1).val) :
    Out m c t y = G m c i := by
  have hN : cfg0.N = 32 := N_0
  have htl : t.val < 32 := by have := t.isLt; omega
  have hi : i = ix2 (rowOf i) (⟨(y 1).val, (y 1).isLt⟩ : Fin 32) := by
    funext a
    match a with
    | ⟨0, _⟩ => rfl
    | ⟨1, _⟩ => exact Fin.ext h1
  refine Eq.trans ?_ (congrArg (G m c) hi.symm)
  rw [← G_eq]
  unfold Out
  by_cases h : (y 0).val < 256
  · rw [dif_pos h]
    exact yA_rows m c t (S1 m c) _ (bias1 m c t ht) ⟨(y 0).val, h⟩ (rowOf i) ⟨(y 1).val, (y 1).isLt⟩
      (by show (i 0).val = 512 * (t.val % 16) + (y 0).val; omega)
  · rw [dif_neg h]
    exact zB_rows m c t (S1 m c) _ (bias1 m c t ht)
      ⟨(y 0).val - 256, by have h2 : (y 0).val < 512 := (y 0).isLt; omega⟩ (rowOf i) ⟨(y 1).val, (y 1).isLt⟩
      (by show (i 0).val = 512 * (t.val % 16) + 256 + ((y 0).val - 256); omega)

end Cert.KernelIdeal.KValue

end
-- ==== Proof.KernelValue.lean ====
/-
  The kernel's value on the extended reals: the output array after the run is the network's result.

  Only the second layer's points write the output window back. Point t of that layer writes rows
  512·(t − 16) … 512·(t − 16) + 511, and what it writes is that block of rows of the result; the sixteen blocks
  cover all 8192 rows, so the array ends holding the result everywhere.
-/
import proofs.«145686_g28389733826938_cont_9to1_253_7_alg».proof.Proof.KernelValueC

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frame Cert.Gcn
open Cert.MatProduct (prod rowOf colOf)
open Cert.RowBias (addRow)
open Cert.Bridge (RowsAt)

variable (m : (ℓ : Loc nD τ sig) → Buf (Elt Ideal) ℓ) (c : Dev nD)

/-- What a point writes back is its block of the network's result. -/
theorem flushed_eq (t : Fin cfg0.N) (hf : (cfg0.win 7).flush t = true) :
    (dats m 0 c).flushed 7 t = ((cfg0.win 7).blk t).view.read (Elt Ideal) (G m c) := by
  have ht : 16 ≤ t.val := by
    by_contra hlt
    have hno := noFlush0_7 t (by omega)
    rw [hno] at hf
    exact Bool.false_ne_true hf
  obtain ⟨e0, e1⟩ := idx_out t ht
  show (cfg0.win 7).cut (grid0.coords t) ((dats m 0 c).after 7 t) = _
  rw [after0_7]
  funext y
  rw [View.read_apply]
  show Out m c t ((cfg0.win 7).xinj (grid0.coords t) y) = G m c (((cfg0.win 7).blk t).view.emb y)
  refine Out_apply m c t ht _ _ ?_ ?_
  · show win0_7.index t (0 : Fin 2) * 512 + 1 * (y 0).val = 512 * (t.val - 16) + (y 0).val
    rw [e0]; omega
  · show win0_7.index t (1 : Fin 2) * 32 + 1 * (y 1).val = (y 1).val
    rw [e1]; omega

/-- An index of the output array is in point t's block exactly when each coordinate is in the block's range. -/
theorem mem_blk (t : Fin cfg0.N) (i : S8192x32.Idx) :
    i ∈ ((cfg0.win 7).blk t).view.set ↔ ∀ a : Fin 2, win0_7.index t a * S512x32.size a ≤ (i a).val
      ∧ (i a).val < win0_7.index t a * S512x32.size a + S512x32.size a := by
  show i ∈ ((View.whole main_v2).slice (win0_7.rect t)).set ↔ _
  rw [View.set_slice_whole, Rect.mem_set_unit]
  exact Iff.rfl

/-- Row r of the output array is written back by point 16 + r / 512. -/
theorem cover (i : S8192x32.Idx) :
    ∃ t : Fin cfg0.N, (cfg0.win 7).flush t = true ∧ i ∈ ((cfg0.win 7).blk t).view.set := by
  have hi0 : (i 0).val < 8192 := (i 0).isLt
  have hi1 : (i 1).val < 32 := (i 1).isLt
  have hN : cfg0.N = 32 := N_0
  obtain ⟨t, htv⟩ : ∃ t : Fin cfg0.N, t.val = 16 + (i 0).val / 512 := ⟨⟨16 + (i 0).val / 512, by omega⟩, rfl⟩
  have ht : 16 ≤ t.val := by omega
  obtain ⟨e0, e1⟩ := idx_out t ht
  refine ⟨t, flush_out t ht, ?_⟩
  rw [mem_blk]
  intro a
  match a with
  | ⟨0, _⟩ =>
    show win0_7.index t (0 : Fin 2) * 512 ≤ (i 0).val ∧ (i 0).val < win0_7.index t (0 : Fin 2) * 512 + 512
    rw [e0]; omega
  | ⟨1, _⟩ =>
    show win0_7.index t (1 : Fin 2) * 32 ≤ (i 1).val ∧ (i 1).val < win0_7.index t (1 : Fin 2) * 32 + 32
    rw [e1]; omega

/-- The output array after the run is the network's result of the six arguments as launched. -/
theorem arrAt_out : (dats (F := Ideal) m 0 c).arrAt 7 cfg0.N = G m c :=
  (dats m 0 c).arrAt_eq_of_cover 7 (G m c) (flushed_eq m c) (cover)

end Cert.KernelIdeal.KValue

end
-- ==== Proof.lean ====
/-
  The certificate of a two-layer dense graph convolution, out = lrelu (adj · (lrelu (adj · (x · W1) + b1) · W2) + b2), fused
  into one kernel over a grid of 2 layers × 16 row blocks, against the same formula written plainly.

  At the extended reals both programs compute `Cert.Gcn.gcn` (Proof/Spec.lean): a matrix product into a zero accumulator
  and the host's product are the same sum, narrowing to bf16 is the identity, the rectifier's slope is one shared f32
  word, and the kernel's tiling — the adjacency matrix read 512 rows at a time through two windows, the hidden layer kept
  in a scratch buffer and filled 512 rows per point, the second layer's support matrix computed once from it — only
  regroups rows. No law used needs the entries to be finite.

  The kernel's frame is proved by hand (Proof/Frame*.lean for the idealized program, Proof/WFrame*.lean the same text for
  the word-level program): the body's four control cases are run symbolically, the scratch buffers' contents are carried
  from point to point as an invariant, and the adjacency matrix's share is dealt between its two windows at the launch.
  The reference's run is Proof/RefRun.lean; that the kernel's final output array is the specification is
  Proof/KernelValue.lean (with Proof/KernelValueA.lean, B, C: what the region finds in each array, each window's block
  read off its array, and the scratch buffers and output blocks as functions of the arguments). The ideal pass rewrote
  nothing, so `preserves` is trivial.
-/
import proofs.«145686_g28389733826938_cont_9to1_253_7_alg».proof.Defs
import proofs.«145686_g28389733826938_cont_9to1_253_7_alg».proof.Proof.Gen.Kernel
import proofs.«145686_g28389733826938_cont_9to1_253_7_alg».proof.Proof.Gen.KernelIdeal
import proofs.«145686_g28389733826938_cont_9to1_253_7_alg».proof.Proof.Gen.ReferenceIdeal
import proofs.«145686_g28389733826938_cont_9to1_253_7_alg».proof.Proof.Gen.Pre_finite_inputs
import proofs.«145686_g28389733826938_cont_9to1_253_7_alg».proof.Proof.WFrameMain
import proofs.«145686_g28389733826938_cont_9to1_253_7_alg».proof.Proof.FrameMain
import proofs.«145686_g28389733826938_cont_9to1_253_7_alg».proof.Proof.RefRun
import proofs.«145686_g28389733826938_cont_9to1_253_7_alg».proof.Proof.KernelValue
import Idealize.ShloMosaic.Adequacy
import Idealize.ShloMosaic.Init

noncomputable section

namespace Cert.Proof

open Idealize.ShloMosaic Idealize.SL.Sem

/-- The word-level kernel runs to the end and leaves its arguments unchanged. -/
theorem frame_p : Cert.frame_Kernel := fun m ρ _ => Cert.Kernel.Frame.frame (F := Bits) m ρ

/-- So does the idealized kernel. -/
theorem frame_pi : Cert.frame_KernelIdeal := fun m ρ _ => Cert.KernelIdeal.Frame.frame (F := Ideal) m ρ

/-- So does the reference. -/
theorem frame_ri : Cert.frame_ReferenceIdeal := fun m ρ _ => Cert.ReferenceIdeal.RefValue.frame m ρ

/-- The ideal pass rewrote no operation. -/
theorem preserves : Cert.preserves_Kernel_KernelIdeal := trivial

/-- From memories that agree on the arguments both idealized programs end with the specification of those arguments
    in their result arrays. -/
theorem algebraic : Cert.algebraic_KernelIdeal_ReferenceIdeal := by
  intro m ρ m' ρ' _ hagree
  refine ⟨fun c => Cert.KernelIdeal.KValue.G m c, ?_, ?_⟩
  · exact (θ_run Cert.KernelIdeal.defs _ _).mono
      (fun _ h c => ⟨(h c).1.trans (Cert.KernelIdeal.KValue.arrAt_out m c), (h c).2⟩)
      (Cert.KernelIdeal.Frame.frame_out (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
